-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S50000x3x128 : Shape := ⟨3, ![50000, 3, 128]⟩
abbrev S50000x3 : Shape := ⟨2, ![50000, 3]⟩
abbrev S2x500000 : Shape := ⟨2, ![2, 500000]⟩
abbrev S276x256 : Shape := ⟨2, ![276, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S20 : Shape := ⟨1, ![20]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x3x128 : S_.BroadcastsInDim S50000x3x128 (![] : Fin 0 → Fin S50000x3x128.rank)
  reducesTo_S50000x3x128_S_d0_1_2 : S50000x3x128.ReducesTo [0, 1, 2] S_
  bcast_S_S50000x3 : S_.BroadcastsInDim S50000x3 (![] : Fin 0 → Fin S50000x3.rank)
  reducesTo_S50000x3_S_d0_1 : S50000x3.ReducesTo [0, 1] S_
  bcast_S_S276x256 : S_.BroadcastsInDim S276x256 (![] : Fin 0 → Fin S276x256.rank)
  reducesTo_S276x256_S_d0_1 : S276x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S20 : S_.BroadcastsInDim S20 (![] : Fin 0 → Fin S20.rank)
  reducesTo_S20_S_d0 : S20.ReducesTo [0] S_

variable [Facts]

def fn_part3 {F : FTy → Type} [FloatOps F] (main_arg12 : FVec F S20 .f32) (main_arg13 : FVec F S20 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S20 .f32 := Host.absf main_arg12
  let main_cst_20 : FVec F S_ .f32 := constant S_ .f32 0x7F800000#32
  let main_v55 : FVec F S20 .f32 := broadcastInDim S20 ![] bcast_S_S20 main_cst_20
  let main_v56 : IVec S20 1 := cmpf .olt main_v54 main_v55
  let main_c_21 : IVec S_ 1 := constantI S_ 1 1#1
  let main_v57 : IVec S_ 1 := (fun x v => Host.reduce IntOp.andi x v reducesTo_S20_S_d0 h_S_) main_v56 main_c_21
  let main_v58 : IVec S_ 1 := andi main_v53 main_v57
  let main_v59 : FVec F S20 .f32 := Host.absf main_arg13
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S256x128 .f32) (main_arg11 : FVec F S128 .f32) (main_arg12 : FVec F S20 .f32) (main_arg13 : FVec F S20 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_arg10 : FVec F S256x128 .f32) (main_arg11 : FVec F S128 .f32) (main_arg12 : FVec F S20 .f32) (main_arg13 : FVec F S20 .f32) (main_v13 : IVec S_ 1) (main_v16 : IVec S276x256 1) : IVec S_ 1 :=
  let main_c_5 : IVec S_ 1 := constantI S_ 1 1#1
  let main_v17 : IVec S_ 1 := (fun x v => Host.reduce IntOp.andi x v reducesTo_S276x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S50000x3x128 .f32) (main_arg2 : FVec F S50000x3 .f32) (main_arg3 : IVec S2x500000 32) (main_arg4 : FVec F S276x256 .f32) (main_arg5 : FVec F S256 .f32) (main_arg6 : FVec F S256x256 .f32) (main_arg7 : FVec F S256 .f32) (main_arg8 : FVec F S256x128 .f32) (main_arg9 : FVec F S128 .f32) (main_arg10 : FVec F S256x128 .f32) (main_arg11 : FVec F S128 .f32) (main_arg12 : FVec F S20 .f32) (main_arg13 : FVec F S20 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x3x128 .f32 := Host.absf main_arg1
  let main_cst_0 : FVec F S_ .f32 := constant S_ .f32 0x7F800000#32
  let main_v5 : FVec F S50000x3x128 .f32 := broadcastInDim S50000x3x128 ![] bcast_S_S50000x3x128 main_cst_0
  let main_v6 : IVec S50000x3x128 1 := cmpf .olt main_v4 main_v5
  let main_c_1 : IVec S_ 1 := constantI S_ 1 1#1
  let main_v7 : IVec S_ 1 := (fun x v => Host.reduce IntOp.andi x v reducesTo_S50000x3x128_S_d0_1_2 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S276x256 .f32 := Host.absf main_arg4
  let main_cst_4 : FVec F S_ .f32 := constant S_ .f32 0x7F800000#32
  let main_v15 : FVec F S276x256 .f32 := broadcastInDim S276x256 ![] bcast_S_S276x256 main_cst_4
  let main_v16 : IVec S276x256 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S50000x3x128 : Shape := ⟨3, ![50000, 3, 128]⟩
abbrev S50000x3 : Shape := ⟨2, ![50000, 3]⟩
abbrev S2x500000 : Shape := ⟨2, ![2, 500000]⟩
abbrev S276x256 : Shape := ⟨2, ![276, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S20 : Shape := ⟨1, ![20]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x3 : Shape := ⟨2, ![500000, 3]⟩
abbrev S128x256 : Shape := ⟨2, ![128, 256]⟩
abbrev S20x256 : Shape := ⟨2, ![20, 256]⟩
abbrev S500000x512 : Shape := ⟨2, ![500000, 512]⟩
abbrev S4000x128 : Shape := ⟨2, ![4000, 128]⟩
abbrev S4000x3 : Shape := ⟨2, ![4000, 3]⟩
abbrev S4000x1 : Shape := ⟨2, ![4000, 1]⟩
abbrev S4000x512 : Shape := ⟨2, ![4000, 512]⟩
abbrev S4000 : Shape := ⟨1, ![4000]⟩
abbrev S1x20 : Shape := ⟨2, ![1, 20]⟩
abbrev S4000x20 : Shape := ⟨2, ![4000, 20]⟩
abbrev S4000x256 : Shape := ⟨2, ![4000, 256]⟩
abbrev S1x256 : Shape := ⟨2, ![1, 256]⟩
abbrev S1x128 : Shape := ⟨2, ![1, 128]⟩
abbrev S500000x384 : Shape := ⟨2, ![500000, 384]⟩
abbrev S500000x3x128 : Shape := ⟨3, ![500000, 3, 128]⟩

abbrev nBuf : Space → Nat
  | .hbm => 79
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S50000x3x128, .f32⟩
  | .hbm, ⟨2, _⟩ => ⟨S50000x3, .f32⟩
  | .hbm, ⟨3, _⟩ => ⟨S2x500000, .i32⟩
  | .hbm, ⟨4, _⟩ => ⟨S276x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S20, .f32⟩
  | .hbm, ⟨13, _⟩ => ⟨S20, .f32⟩
  | .hbm, ⟨14, _⟩ => ⟨S1x500000, .i32⟩
  | .hbm, ⟨15, _⟩ => ⟨S500000, .i32⟩
  | .hbm, ⟨16, _⟩ => ⟨S1x500000, .i32⟩
  | .hbm, ⟨17, _⟩ => ⟨S500000, .i32⟩
  | .hbm, ⟨18, _⟩ => ⟨S_, .f32⟩
  | .hbm, ⟨19, _⟩ => ⟨S500000x1, .f32⟩
  | .hbm, ⟨20, _⟩ => ⟨S50000x128, .bf16⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .bf16⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .bf16⟩
  | .hbm, ⟨39, _⟩ => ⟨S_, .i32⟩
  | .hbm, ⟨40, _⟩ => ⟨S500000, .i32⟩
  | .hbm, ⟨41, _⟩ => ⟨S500000, .i1⟩
  | .hbm, ⟨42, _⟩ => ⟨S_, .i32⟩
  | .hbm, ⟨43, _⟩ => ⟨S500000, .i32⟩
  | .hbm, ⟨44, _⟩ => ⟨S500000, .i32⟩
  | .hbm, ⟨45, _⟩ => ⟨S500000, .i32⟩
  | .hbm, ⟨46, _⟩ => ⟨S500000x1, .i32⟩
  | .hbm, ⟨47, _⟩ => ⟨S500000x3, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x3, .f32⟩
  | .hbm, ⟨57, _⟩ => ⟨S128x256, .f32⟩
  | .hbm, ⟨58, _⟩ => ⟨S128x256, .bf16⟩
  | .hbm, ⟨59, _⟩ => ⟨S128x256, .f32⟩
  | .hbm, ⟨60, _⟩ => ⟨S128x256, .bf16⟩
  | .hbm, ⟨61, _⟩ => ⟨S20x256, .f32⟩
  | .hbm, ⟨62, _⟩ => ⟨S256x256, .bf16⟩
  | .hbm, ⟨63, _⟩ => ⟨S256x128, .bf16⟩
  | .hbm, ⟨64, _⟩ => ⟨S256x128, .bf16⟩
  | .hbm, ⟨65, _⟩ => ⟨S500000x512, .f32⟩
  | .hbm, ⟨66, _⟩ => ⟨S500000x128, .f32⟩
  | .hbm, ⟨67, _⟩ => ⟨S500000x384, .f32⟩
  | .hbm, ⟨68, _⟩ => ⟨S500000x3x128, .f32⟩
  | .hbm, ⟨69, _⟩ => ⟨S_, .f32⟩
  | .hbm, ⟨70, _⟩ => ⟨S50000x128, .f32⟩
  | .hbm, ⟨71, _⟩ => ⟨S500000x1, .i32⟩
  | .hbm, ⟨72, _⟩ => ⟨S50000x128, .f32⟩
  | .hbm, ⟨73, _⟩ => ⟨S_, .f32⟩
  | .hbm, ⟨74, _⟩ => ⟨S50000x3x128, .f32⟩
  | .hbm, ⟨75, _⟩ => ⟨S500000x1, .i32⟩
  | .hbm, ⟨76, _⟩ => ⟨S50000x3x128, .f32⟩
  | .hbm, ⟨77, _⟩ => ⟨S50000x128, .f32⟩
  | .hbm, ⟨78, _⟩ => ⟨S50000x3x128, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x3, .f32⟩
  | .local _ .vmem, ⟨5, _⟩ => ⟨S4000x3, .f32⟩
  | .local _ .vmem, ⟨6, _⟩ => ⟨S4000x3, .f32⟩
  | .local _ .vmem, ⟨7, _⟩ => ⟨S4000x3, .f32⟩
  | .local _ .vmem, ⟨8, _⟩ => ⟨S4000x1, .f32⟩
  | .local _ .vmem, ⟨9, _⟩ => ⟨S4000x1, .f32⟩
  | .local _ .vmem, ⟨10, _⟩ => ⟨S128x256, .bf16⟩
  | .local _ .vmem, ⟨11, _⟩ => ⟨S128x256, .bf16⟩
  | .local _ .vmem, ⟨12, _⟩ => ⟨S20x256, .f32⟩
  | .local _ .vmem, ⟨13, _⟩ => ⟨S256, .f32⟩
  | .local _ .vmem, ⟨14, _⟩ => ⟨S256x256, .bf16⟩
  | .local _ .vmem, ⟨15, _⟩ => ⟨S256, .f32⟩
  | .local _ .vmem, ⟨16, _⟩ => ⟨S256x128, .bf16⟩
  | .local _ .vmem, ⟨17, _⟩ => ⟨S128, .f32⟩
  | .local _ .vmem, ⟨18, _⟩ => ⟨S256x128, .bf16⟩
  | .local _ .vmem, ⟨19, _⟩ => ⟨S128, .f32⟩
  | .local _ .vmem, ⟨20, _⟩ => ⟨S20, .f32⟩
  | .local _ .vmem, ⟨21, _⟩ => ⟨S20, .f32⟩
  | .local _ .vmem, ⟨22, _⟩ => ⟨S4000x512, .f32⟩
  | .local _ .vmem, ⟨23, _⟩ => ⟨S4000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_1 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_7 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_8 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S20 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S20 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4000x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000x1 : S_.BroadcastsInDim S500000x1 (![] : Fin 0 → Fin S500000x1.rank)
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  slices_S276x256_S128x256_0_0 : S276x256.Slices ![0, 0] S128x256
  slices_S276x256_S128x256_128_0 : S276x256.Slices ![128, 0] S128x256
  slices_S276x256_S20x256_256_0 : S276x256.Slices ![256, 0] S20x256
  inb_S4000x3_S4000x3_0_0 : ∀ a, (![0, 0] : Fin 2 → Nat) a + S4000x3.size a ≤ S4000x3.size a
  h_S4000x3 : 0 < S4000x3.numel
  shapeCasts_S4000x3_S4000x3 : S4000x3.ShapeCasts S4000x3
  reduces_S4000x3_S4000 : S4000x3.Reduces [1] S4000
  shapeCasts_S4000_S4000x1 : S4000.ShapeCasts S4000x1
  inb_S20_S20_0 : ∀ a, (![0] : Fin 1 → Nat) a + S20.size a ≤ S20.size a
  h_S20 : 0 < S20.numel
  shapeCasts_S20_S1x20 : S20.ShapeCasts S1x20
  broadcasts_S4000x1_S4000x20 : S4000x1.Broadcasts S4000x20
  broadcasts_S1x20_S4000x20 : S1x20.Broadcasts S4000x20
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S20x256_S20x256_0_0 : ∀ a, (![0, 0] : Fin 2 → Nat) a + S20x256.size a ≤ S20x256.size a
  h_S20x256 : 0 < S20x256.numel
  shapeCasts_S20x256_S20x256 : S20x256.ShapeCasts S20x256
  inb_S256_S256_0 : ∀ a, (![0] : Fin 1 → Nat) a + S256.size a ≤ S256.size a
  h_S256 : 0 < S256.numel
  shapeCasts_S256_S1x256 : S256.ShapeCasts S1x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  broadcasts_S4000x1_S4000x3 : S4000x1.Broadcasts S4000x3
  slices_S4000x3_o0_0_S4000x1 : S4000x3.Slices ![0, 0] S4000x1
  broadcasts_S4000x1_S4000x128 : S4000x1.Broadcasts S4000x128
  slices_S4000x3_o0_1_S4000x1 : S4000x3.Slices ![0, 1] S4000x1
  slices_S4000x3_o0_2_S4000x1 : S4000x3.Slices ![0, 2] S4000x1
  concatenates_S4000x128_S4000x128_S4000x128_S4000x128_S4000x512_d1 : Shape.Concatenates [S4000x128, S4000x128, S4000x128, S4000x128] S4000x512 1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x512 : S4000x1.Broadcasts S4000x512
  inb_S4000x512_S4000x512_0_0 : ∀ a, (![0, 0] : Fin 2 → Nat) a + S4000x512.size a ≤ S4000x512.size a
  h_S4000x512 : 0 < S4000x512.numel
  slices_S500000x512_S500000x128_0_0 : S500000x512.Slices ![0, 0] S500000x128
  slices_S500000x512_S500000x384_0_128 : S500000x512.Slices ![0, 128] S500000x384
  shapeCasts_S500000x384_S500000x3x128 : S500000x384.ShapeCasts S500000x3x128
  bcast_S_S50000x128 : S_.BroadcastsInDim S50000x128 (![] : Fin 0 → Fin S50000x128.rank)
  bcast_S_S50000x3x128 : S_.BroadcastsInDim S50000x3x128 (![] : Fin 0 → Fin S50000x3x128.rank)
  gather_S50000x128_S500000x1_S500000x128_1_0_n_n_0_1_1128_wf : GatherDims.WF S50000x128 S500000x1 S500000x128 [1] [0] [] [0] [] 1 ![1, 128]
  gather_S50000x3_S500000x1_S500000x3_1_0_n_n_0_1_13_wf : GatherDims.WF S50000x3 S500000x1 S500000x3 [1] [0] [] [0] [] 1 ![1, 3]
  dot_S4000x128_S128x256_S4000x256_1_0_0_1_n_n_wf : DotDims.WF S4000x128 S128x256 S4000x256 [1] [0] [0] [1] [] []
  dot_S4000x20_S20x256_S4000x256_1_0_0_1_n_n_wf : DotDims.WF S4000x20 S20x256 S4000x256 [1] [0] [0] [1] [] []
  dot_S4000x256_S256x256_S4000x256_1_0_0_1_n_n_wf : DotDims.WF S4000x256 S256x256 S4000x256 [1] [0] [0] [1] [] []
  dot_S4000x256_S256x128_S4000x128_1_0_0_1_n_n_wf : DotDims.WF S4000x256 S256x128 S4000x128 [1] [0] [0] [1] [] []
  scatter_S50000x128_S500000x1_S500000x128_1_0_0_1_wf : ScatterDims.WF S50000x128 S500000x1 S500000x128 [1] [0] [0] 1
  scatter_S50000x3x128_S500000x1_S500000x3x128_12_0_0_1_wf : ScatterDims.WF S50000x3x128 S500000x1 S500000x3x128 [1, 2] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .bf16 = 32 ∨ (Rect.block (s := S500000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .bf16 = 32 ∨ (Rect.block (s := S500000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x3.size a ≤ S500000x3.size a
  hwx0_2 : ∀ i : grid0.Coords, EltTy.bits .f32 = 32 ∨ (Rect.block (s := S500000x3) S4000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x3.size a ≤ S500000x3.size a
  hwx0_3 : ∀ i : grid0.Coords, EltTy.bits .f32 = 32 ∨ (Rect.block (s := S500000x3) S4000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x1.size a ≤ S500000x1.size a
  hwx0_4 : ∀ i : grid0.Coords, EltTy.bits .f32 = 32 ∨ (Rect.block (s := S500000x1) S4000x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20x256.size a ≤ S20x256.size a
  hwx0_7 : ∀ i : grid0.Coords, EltTy.bits .f32 = 32 ∨ (Rect.block (s := S20x256) S20x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .bf16 = 32 ∨ (Rect.block (s := S256x128) S256x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S20.size a ≤ S20.size a
  hwx0_15 : ∀ i : grid0.Coords, EltTy.bits .f32 = 32 ∨ (Rect.block (s := S20) S20.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S20.size a ≤ S20.size a
  hwx0_16 : ∀ i : grid0.Coords, EltTy.bits .f32 = 32 ∨ (Rect.block (s := S20) S20.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x512.size a ≤ S500000x512.size a
  hwx0_17 : ∀ i : grid0.Coords, EltTy.bits .f32 = 32 ∨ (Rect.block (s := S500000x512) S4000x512.size (cc0_transform_17 i) (hinb0_17 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x20_S20x256_S4000x256_1_0_0_1_n_n : DotDims S4000x20 S20x256 S4000x256 where
  lhsContracting := [1]
  rhsContracting := [0]
  lhsNonContracting := [0]
  rhsNonContracting := [1]
  lhsBatch := []
  rhsBatch := []
  wf := dot_S4000x20_S20x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x3x128_S500000x1_S500000x3x128_12_0_0_1 : ScatterDims S50000x3x128 S500000x1 S500000x3x128 where
  updateWindowDims := [1, 2]
  insertedWindowDims := [0]
  scatterDimsToOperandDims := [0]
  indexVectorDim := 1
  wf := scatter_S50000x3x128_S500000x1_S500000x3x128_12_0_0_1_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S4000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S4000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S4000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v35) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S20x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v39) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v40) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v41) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg11) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg12) S20.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg13) S20.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v42) S4000x512.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S50000x128 : Shape := ⟨2, ![50000, 128]⟩
abbrev S50000x3x128 : Shape := ⟨3, ![50000, 3, 128]⟩
abbrev S50000x3 : Shape := ⟨2, ![50000, 3]⟩
abbrev S2x500000 : Shape := ⟨2, ![2, 500000]⟩
abbrev S276x256 : Shape := ⟨2, ![276, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S20 : Shape := ⟨1, ![20]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x3 : Shape := ⟨2, ![500000, 3]⟩
abbrev S1x20 : Shape := ⟨2, ![1, 20]⟩
abbrev S500000x20 : Shape := ⟨2, ![500000, 20]⟩
abbrev S500000x128 : Shape := ⟨2, ![500000, 128]⟩
abbrev S500000x276 : Shape := ⟨2, ![500000, 276]⟩
abbrev S500000x256 : Shape := ⟨2, ![500000, 256]⟩
abbrev S1x256 : Shape := ⟨2, ![1, 256]⟩
abbrev S1x128 : Shape := ⟨2, ![1, 128]⟩
abbrev S500000x3x1 : Shape := ⟨3, ![500000, 3, 1]⟩
abbrev S500000x1x128 : Shape := ⟨3, ![500000, 1, 128]⟩
abbrev S500000x3x128 : Shape := ⟨3, ![500000, 3, 128]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S50000x3x128, .f32⟩
  | 2 => ⟨S50000x3, .f32⟩
  | 3 => ⟨S2x500000, .i32⟩
  | 4 => ⟨S276x256, .f32⟩
  | 5 => ⟨S256, .f32⟩
  | 6 => ⟨S256x256, .f32⟩
  | 7 => ⟨S256, .f32⟩
  | 8 => ⟨S256x128, .f32⟩
  | 9 => ⟨S128, .f32⟩
  | 10 => ⟨S256x128, .f32⟩
  | 11 => ⟨S128, .f32⟩
  | 12 => ⟨S20, .f32⟩
  | 13 => ⟨S20, .f32⟩
  | 14 => ⟨S1x500000, .i32⟩
  | 15 => ⟨S500000, .i32⟩
  | 16 => ⟨S1x500000, .i32⟩
  | 17 => ⟨S500000, .i32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x3, .f32⟩
  | 27 => ⟨S_, .i32⟩
  | 28 => ⟨S500000, .i32⟩
  | 29 => ⟨S500000, .i1⟩
  | 30 => ⟨S_, .i32⟩
  | 31 => ⟨S500000, .i32⟩
  | 32 => ⟨S500000, .i32⟩
  | 33 => ⟨S500000, .i32⟩
  | 34 => ⟨S500000x1, .i32⟩
  | 35 => ⟨S500000x3, .f32⟩
  | 36 => ⟨S500000x3, .f32⟩
  | 37 => ⟨S500000x3, .f32⟩
  | 38 => ⟨S_, .f32⟩
  | 39 => ⟨S500000, .f32⟩
  | 40 => ⟨S500000x1, .f32⟩
  | 41 => ⟨S500000x1, .f32⟩
  | 42 => ⟨S1x20, .f32⟩
  | 43 => ⟨S500000x20, .f32⟩
  | 44 => ⟨S500000x20, .f32⟩
  | 45 => ⟨S500000x20, .f32⟩
  | 46 => ⟨S_, .f32⟩
  | 47 => ⟨S20, .f32⟩
  | 48 => ⟨S20, .f32⟩
  | 49 => ⟨S1x20, .f32⟩
  | 50 => ⟨S500000x20, .f32⟩
  | 51 => ⟨S500000x20, .f32⟩
  | 52 => ⟨S500000x20, .f32⟩
  | 53 => ⟨S500000x20, .f32⟩
  | 54 => ⟨S500000x20, .f32⟩
  | 55 => ⟨S_, .i32⟩
  | 56 => ⟨S500000, .i32⟩
  | 57 => ⟨S500000, .i1⟩
  | 58 => ⟨S_, .i32⟩
  | 59 => ⟨S500000, .i32⟩
  | 60 => ⟨S500000, .i32⟩
  | 61 => ⟨S500000, .i32⟩
  | 62 => ⟨S500000x1, .i32⟩
  | 63 => ⟨S500000x128, .f32⟩
  | 64 => ⟨S_, .i32⟩
  | 65 => ⟨S500000, .i32⟩
  | 66 => ⟨S500000, .i1⟩
  | 67 => ⟨S_, .i32⟩
  | 68 => ⟨S500000, .i32⟩
  | 69 => ⟨S500000, .i32⟩
  | 70 => ⟨S500000, .i32⟩
  | 71 => ⟨S500000x1, .i32⟩
  | 72 => ⟨S500000x128, .f32⟩
  | 73 => ⟨S500000x276, .f32⟩
  | 74 => ⟨S500000x256, .f32⟩
  | 75 => ⟨S1x256, .f32⟩
  | 76 => ⟨S500000x256, .f32⟩
  | 77 => ⟨S500000x256, .f32⟩
  | 78 => ⟨S500000x256, .f32⟩
  | 79 => ⟨S500000x256, .f32⟩
  | 80 => ⟨S_, .f32⟩
  | 81 => ⟨S500000x256, .f32⟩
  | 82 => ⟨S500000x256, .f32⟩
  | 83 => ⟨S_, .f32⟩
  | 84 => ⟨S500000x256, .f32⟩
  | 85 => ⟨S500000x256, .f32⟩
  | 86 => ⟨S500000x256, .f32⟩
  | 87 => ⟨S500000x256, .f32⟩
  | 88 => ⟨S1x256, .f32⟩
  | 89 => ⟨S500000x256, .f32⟩
  | 90 => ⟨S500000x256, .f32⟩
  | 91 => ⟨S500000x256, .f32⟩
  | 92 => ⟨S500000x256, .f32⟩
  | 93 => ⟨S_, .f32⟩
  | 94 => ⟨S500000x256, .f32⟩
  | 95 => ⟨S500000x256, .f32⟩
  | 96 => ⟨S_, .f32⟩
  | 97 => ⟨S500000x256, .f32⟩
  | 98 => ⟨S500000x256, .f32⟩
  | 99 => ⟨S500000x256, .f32⟩
  | 100 => ⟨S500000x128, .f32⟩
  | 101 => ⟨S1x128, .f32⟩
  | 102 => ⟨S500000x128, .f32⟩
  | 103 => ⟨S500000x128, .f32⟩
  | 104 => ⟨S500000x128, .f32⟩
  | 105 => ⟨S1x128, .f32⟩
  | 106 => ⟨S500000x128, .f32⟩
  | 107 => ⟨S500000x128, .f32⟩
  | 108 => ⟨S_, .f32⟩
  | 109 => ⟨S500000x1, .f32⟩
  | 110 => ⟨S500000x1, .i1⟩
  | 111 => ⟨S_, .f32⟩
  | 112 => ⟨S_, .f32⟩
  | 113 => ⟨S500000x1, .f32⟩
  | 114 => ⟨S500000x1, .f32⟩
  | 115 => ⟨S_, .f32⟩
  | 116 => ⟨S500000x1, .f32⟩
  | 117 => ⟨S500000x1, .i1⟩
  | 118 => ⟨S_, .f32⟩
  | 119 => ⟨S500000x1, .f32⟩
  | 120 => ⟨S500000x1, .f32⟩
  | 121 => ⟨S_, .f32⟩
  | 122 => ⟨S_, .f32⟩
  | 123 => ⟨S500000x1, .f32⟩
  | 124 => ⟨S500000x1, .f32⟩
  | 125 => ⟨S500000x3, .f32⟩
  | 126 => ⟨S500000x3, .f32⟩
  | 127 => ⟨S500000x3x1, .f32⟩
  | _ => ⟨S50000x128, .f32⟩

abbrev hbmTy0_1 (i : Nat) : BufTy := match i % 128 with
  | 0 => ⟨S500000x1x128, .f32⟩
  | 1 => ⟨S500000x3x128, .f32⟩
  | 2 => ⟨S500000x3x128, .f32⟩
  | 3 => ⟨S500000x3x128, .f32⟩
  | 4 => ⟨S_, .f32⟩
  | 5 => ⟨S50000x128, .f32⟩
  | 6 => ⟨S500000x1, .i32⟩
  | 7 => ⟨S50000x128, .f32⟩
  | 8 => ⟨S_, .f32⟩
  | 9 => ⟨S50000x3x128, .f32⟩
  | 10 => ⟨S500000x1, .i32⟩
  | 11 => ⟨S50000x3x128, .f32⟩
  | 12 => ⟨S50000x128, .f32⟩
  | 13 => ⟨S50000x3x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_cst : Ref sig .tc := ⟨.hbm, 38, rfl⟩
abbrev main_call0_v1 : Ref sig .tc := ⟨.hbm, 39, rfl⟩
abbrev main_call0_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_3 : Ref sig .tc := ⟨.hbm, 55, rfl⟩
abbrev main_v32 : Ref sig .tc := ⟨.hbm, 56, rfl⟩
abbrev main_v33 : Ref sig .tc := ⟨.hbm, 57, rfl⟩
abbrev main_c_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_5 : Ref sig .tc := ⟨.hbm, 64, rfl⟩
abbrev main_v39 : Ref sig .tc := ⟨.hbm, 65, rfl⟩
abbrev main_v40 : Ref sig .tc := ⟨.hbm, 66, rfl⟩
abbrev main_c_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_call1_v0 : Ref sig .tc := ⟨.hbm, 78, rfl⟩
abbrev main_call1_v1 : Ref sig .tc := ⟨.hbm, 79, rfl⟩
abbrev main_call1_cst : Ref sig .tc := ⟨.hbm, 80, rfl⟩
abbrev main_call1_v2 : Ref sig .tc := ⟨.hbm, 81, rfl⟩
abbrev main_call1_v3 : Ref sig .tc := ⟨.hbm, 82, rfl⟩
abbrev main_call1_cst_0 : Ref sig .tc := ⟨.hbm, 83, rfl⟩
abbrev main_call1_v4 : Ref sig .tc := ⟨.hbm, 84, rfl⟩
abbrev main_call1_v5 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_7 : Ref sig .tc := ⟨.hbm, 108, rfl⟩
abbrev main_v65 : Ref sig .tc := ⟨.hbm, 109, rfl⟩
abbrev main_v66 : Ref sig .tc := ⟨.hbm, 110, rfl⟩
abbrev main_cst_8 : Ref sig .tc := ⟨.hbm, 111, rfl⟩
abbrev main_call3_v0 : Ref sig .tc := ⟨.hbm, 112, rfl⟩
abbrev main_call3_v1 : Ref sig .tc := ⟨.hbm, 113, rfl⟩
abbrev main_v67 : Ref sig .tc := ⟨.hbm, 114, rfl⟩
abbrev main_cst_9 : Ref sig .tc := ⟨.hbm, 115, rfl⟩
abbrev main_v68 : Ref sig .tc := ⟨.hbm, 116, rfl⟩
abbrev main_v69 : Ref sig .tc := ⟨.hbm, 117, rfl⟩
abbrev main_cst_10 : Ref sig .tc := ⟨.hbm, 118, rfl⟩
abbrev main_v70 : Ref sig .tc := ⟨.hbm, 119, rfl⟩
abbrev main_v71 : Ref sig .tc := ⟨.hbm, 120, rfl⟩
abbrev main_cst_11 : Ref sig .tc := ⟨.hbm, 121, rfl⟩
abbrev main_call4_v0 : Ref sig .tc := ⟨.hbm, 122, rfl⟩
abbrev main_call4_v1 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_cst_12 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_cst_13 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  reducesTo_S500000x3_S500000_d1 : S500000x3.ReducesTo [1] S500000
  h_S_ : 0 < S_.numel
  bcast_S20_S1x20_1 : S20.BroadcastsInDim S1x20 (![1] : Fin 1 → Fin S1x20.rank)
  bcast_S500000x1_S500000x20_0_1 : S500000x1.BroadcastsInDim S500000x20 (![0, 1] : Fin 2 → Fin S500000x20.rank)
  bcast_S1x20_S500000x20_0_1 : S1x20.BroadcastsInDim S500000x20 (![0, 1] : Fin 2 → Fin S500000x20.rank)
  bcast_S_S20 : S_.BroadcastsInDim S20 (![] : Fin 0 → Fin S20.rank)
  concatenates_S500000x128_S500000x128_S500000x20_S500000x276_d1 : Shape.Concatenates [S500000x128, S500000x128, S500000x20] S500000x276 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x1 : S_.BroadcastsInDim S500000x1 (![] : Fin 0 → Fin S500000x1.rank)
  bcast_S500000x1_S500000x3_0_1 : S500000x1.BroadcastsInDim S500000x3 (![0, 1] : Fin 2 → Fin S500000x3.rank)
  bcast_S500000x3_S500000x3x1_0_1 : S500000x3.BroadcastsInDim S500000x3x1 (![0, 1] : Fin 2 → Fin S500000x3x1.rank)
  bcast_S500000x128_S500000x1x128_0_2 : S500000x128.BroadcastsInDim S500000x1x128 (![0, 2] : Fin 2 → Fin S500000x1x128.rank)
  bcast_S500000x3x1_S500000x3x128_0_1_2 : S500000x3x1.BroadcastsInDim S500000x3x128 (![0, 1, 2] : Fin 3 → Fin S500000x3x128.rank)
  bcast_S500000x1x128_S500000x3x128_0_1_2 : S500000x1x128.BroadcastsInDim S500000x3x128 (![0, 1, 2] : Fin 3 → Fin S500000x3x128.rank)
  bcast_S_S50000x128 : S_.BroadcastsInDim S50000x128 (![] : Fin 0 → Fin S50000x128.rank)
  bcast_S_S50000x3x128 : S_.BroadcastsInDim S50000x3x128 (![] : Fin 0 → Fin S50000x3x128.rank)
  gather_S50000x3_S500000x1_S500000x3_1_0_n_n_0_1_13_wf : GatherDims.WF S50000x3 S500000x1 S500000x3 [1] [0] [] [0] [] 1 ![1, 3]
  gather_S50000x128_S500000x1_S500000x128_1_0_n_n_0_1_1128_wf : GatherDims.WF S50000x128 S500000x1 S500000x128 [1] [0] [] [0] [] 1 ![1, 128]
  dot_S500000x276_S276x256_S500000x256_1_0_0_1_n_n_wf : DotDims.WF S500000x276 S276x256 S500000x256 [1] [0] [0] [1] [] []
  dot_S500000x256_S256x256_S500000x256_1_0_0_1_n_n_wf : DotDims.WF S500000x256 S256x256 S500000x256 [1] [0] [0] [1] [] []
  dot_S500000x256_S256x128_S500000x128_1_0_0_1_n_n_wf : DotDims.WF S500000x256 S256x128 S500000x128 [1] [0] [0] [1] [] []
  scatter_S50000x128_S500000x1_S500000x128_1_0_0_1_wf : ScatterDims.WF S50000x128 S500000x1 S500000x128 [1] [0] [0] 1
  scatter_S50000x3x128_S500000x1_S500000x3x128_12_0_0_1_wf : ScatterDims.WF S50000x3x128 S500000x1 S500000x3x128 [1, 2] [0] [0] 1

variable [Facts₀]

def gather_S50000x3_S500000x1_S500000x3_1_0_n_n_0_1_13 : GatherDims S50000x3 S500000x1 S500000x3 where
  offsetDims := [1]
  collapsedSliceDims := [0]
  operandBatchingDims := []
  startIndicesBatchingDims := []
  startIndexMap := [0]
  indexVectorDim := 1
  sliceSizes := ![1, 3]
  wf := gather_S50000x3_S500000x1_S500000x3_1_0_n_n_0_1_13_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x276_S276x256_S500000x256_1_0_0_1_n_n : DotDims S500000x276 S276x256 S500000x256 where
  lhsContracting := [1]
  rhsContracting := [0]
  lhsNonContracting := [0]
  rhsNonContracting := [1]
  lhsBatch := []
  rhsBatch := []
  wf := dot_S500000x276_S276x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000x3x128_S500000x1_S500000x3x128_12_0_0_1 : ScatterDims S50000x3x128 S500000x1 S500000x3x128 where
  updateWindowDims := [1, 2]
  insertedWindowDims := [0]
  scatterDimsToOperandDims := [0]
  indexVectorDim := 1
  wf := scatter_S50000x3x128_S500000x1_S500000x3x128_12_0_0_1_wf

class Facts : Prop extends Facts₀ where

variable [Facts]
-- ==== Proof.EdgeSpec.lean ====
/-
  The mathematics of one edge of the message-passing layer, on the extended reals.

  An edge carries the scalar features of its source node (`A`) and of its destination node (`B`), 128 numbers each, and
  the two nodes' positions (`ps`, `pd`). From them: the displacement `rij = pd - ps`, its length `dist`, twenty radial
  basis values `rbf k = exp (-((dist - cen k) / (wid k + ε))²)`, a two-layer perceptron with the activation
  `silu x = x · logistic x` applied to the 276 numbers `A ++ B ++ rbf`, two linear heads on the hidden row (the scalar message
  `dsE` and the magnitude of the vector message), and the unit direction `rij / dist` (zero where `dist` is not positive),
  which scales the magnitude into the vector message `dvE`.
-/
import Idealize.ShloMosaic.PureOps.Ideal
import Idealize.ShloMosaic.PureOps.Ideal.Laws
import Idealize.ShloMosaic.Lib.IdealHost
import Mathlib.Algebra.BigOperators.Fin

noncomputable section

namespace Cert.EdgeSpec

open Idealize.ShloMosaic

/-- One coordinate of the displacement from the source node to the destination node. -/
def rij (ps pd : Fin 3 → EReal) (c : Fin 3) : EReal := pd c - ps c

/-- The displacement's Euclidean length. -/
def dist (ps pd : Fin 3 → EReal) : EReal := Ideal.sqrt (∑ c : Fin 3, rij ps pd c * rij ps pd c)

/-- The small number added to every width before dividing by it. -/
def eps : EReal := Ideal.ofBits .f32 0x322BCC77#32

/-- The distance measured from centre `k` in units of width `k`. -/
def rbfArg (cen wid : Fin 20 → EReal) (d : EReal) (k : Fin 20) : EReal := Ideal.div (d - cen k) (wid k + eps)

/-- Radial basis value `k` of a distance: a Gaussian bump around centre `k`. -/
def rbf (cen wid : Fin 20 → EReal) (d : EReal) (k : Fin 20) : EReal :=
  Ideal.exp (-(rbfArg cen wid d k * rbfArg cen wid d k))

/-- The activation `x · logistic x`. -/
def silu (x : EReal) : EReal := x * Ideal.logistic x

/-- An affine map: entry `n` of `x · W + b`. -/
def lin {K N : Nat} (W : Fin K → Fin N → EReal) (b : Fin N → EReal) (x : Fin K → EReal) (n : Fin N) : EReal :=
  (∑ k : Fin K, x k * W k n) + b n

/-- The perceptron's input row: source features, destination features, radial basis values, side by side. -/
def cat (A B : Fin 128 → EReal) (r : Fin 20 → EReal) (k : Fin 276) : EReal :=
  if h : k.val < 128 then A ⟨k.val, h⟩
  else if h2 : k.val < 256 then B ⟨k.val - 128, by omega⟩
  else r ⟨k.val - 256, by have := k.isLt; omega⟩

/-- Whether a distance is positive, as a one-bit word. -/
def gt0 (d : EReal) : BitVec 1 := Ideal.cmp .ogt d 0

/-- The reciprocal of a positive distance, and zero for any other. -/
def invDist (d : EReal) : EReal := Scalar.select (gt0 d) (Ideal.div 1 (Scalar.select (gt0 d) d 1)) 0

/-- One coordinate of the unit direction from source to destination (zero when the two positions coincide). -/
def dir (ps pd : Fin 3 → EReal) (c : Fin 3) : EReal := rij ps pd c * invDist (dist ps pd)

/-- The layer's parameters. -/
structure Wts where
  W1 : Fin 276 → Fin 256 → EReal
  b1 : Fin 256 → EReal
  W2 : Fin 256 → Fin 256 → EReal
  b2 : Fin 256 → EReal
  Ws : Fin 256 → Fin 128 → EReal
  bs : Fin 128 → EReal
  Wv : Fin 256 → Fin 128 → EReal
  bv : Fin 128 → EReal
  cen : Fin 20 → EReal
  wid : Fin 20 → EReal

/-- The first hidden row. -/
def hid1 (w : Wts) (A B : Fin 128 → EReal) (ps pd : Fin 3 → EReal) (n : Fin 256) : EReal :=
  silu (lin w.W1 w.b1 (cat A B (rbf w.cen w.wid (dist ps pd))) n)

/-- The second hidden row. -/
def hid2 (w : Wts) (A B : Fin 128 → EReal) (ps pd : Fin 3 → EReal) (n : Fin 256) : EReal :=
  silu (lin w.W2 w.b2 (hid1 w A B ps pd) n)

/-- The scalar message of an edge. -/
def dsE (w : Wts) (A B : Fin 128 → EReal) (ps pd : Fin 3 → EReal) (j : Fin 128) : EReal :=
  lin w.Ws w.bs (hid2 w A B ps pd) j

/-- The magnitude of the vector message of an edge. -/
def dvMag (w : Wts) (A B : Fin 128 → EReal) (ps pd : Fin 3 → EReal) (j : Fin 128) : EReal :=
  lin w.Wv w.bv (hid2 w A B ps pd) j

/-- The vector message of an edge: the magnitude along the unit direction. -/
def dvE (w : Wts) (A B : Fin 128 → EReal) (ps pd : Fin 3 → EReal) (c : Fin 3) (j : Fin 128) : EReal :=
  dir ps pd c * dvMag w A B ps pd j

/-- A sum over the 276 entries of the concatenated row is the sum over the source block, plus the sum over the
    destination block, plus the sum over the radial block: addition on the extended reals is commutative and associative,
    so no finiteness is needed. -/
theorem sum_cat (f : Fin 276 → EReal) :
    ∑ k : Fin 276, f k
      = (∑ k : Fin 128, f ⟨k.val, by omega⟩ + ∑ k : Fin 128, f ⟨128 + k.val, by omega⟩)
        + ∑ k : Fin 20, f ⟨256 + k.val, by omega⟩ := by
  have h1 := Fin.sum_univ_add (M := EReal) (a := 256) (b := 20) f
  have h2 := Fin.sum_univ_add (M := EReal) (a := 128) (b := 128) (fun i : Fin 256 => f (Fin.castAdd 20 i))
  rw [h1, h2]
  rfl

/-- The first affine layer on the concatenated row, block by block. -/
theorem lin_cat (W1 : Fin 276 → Fin 256 → EReal) (b1 : Fin 256 → EReal) (A B : Fin 128 → EReal) (r : Fin 20 → EReal)
    (n : Fin 256) :
    lin W1 b1 (cat A B r) n
      = ((∑ k : Fin 128, A k * W1 ⟨k.val, by omega⟩ n + ∑ k : Fin 128, B k * W1 ⟨128 + k.val, by omega⟩ n)
        + ∑ k : Fin 20, r k * W1 ⟨256 + k.val, by omega⟩ n) + b1 n := by
  unfold lin
  rw [sum_cat]
  refine congrArg (· + b1 n) (congrArg₂ (· + ·) (congrArg₂ (· + ·) ?_ ?_) ?_)
  · refine Finset.sum_congr rfl fun k _ => ?_
    have hk : (⟨k.val, by omega⟩ : Fin 276).val < 128 := k.isLt
    simp only [cat, dif_pos hk]
  · refine Finset.sum_congr rfl fun k _ => ?_
    have hk : ¬ (⟨128 + k.val, by omega⟩ : Fin 276).val < 128 := by simp
    have hk2 : (⟨128 + k.val, by omega⟩ : Fin 276).val < 256 := by simp; omega
    simp only [cat, dif_neg hk, dif_pos hk2, Nat.add_sub_cancel_left]
  · refine Finset.sum_congr rfl fun k _ => ?_
    have hk : ¬ (⟨256 + k.val, by omega⟩ : Fin 276).val < 128 := by simp; omega
    have hk2 : ¬ (⟨256 + k.val, by omega⟩ : Fin 276).val < 256 := by simp
    simp only [cat, dif_neg hk, dif_neg hk2, Nat.add_sub_cancel_left]

end Cert.EdgeSpec

end
-- ==== Proof.EdgeSpecBlocks.lean ====
/-
  The same edge mathematics with the first weight matrix given as its three row blocks.

  The perceptron's first affine layer applied to the row `A ++ B ++ rbf` is the sum of three products: `A` with the first
  128 rows of the weight matrix, `B` with the next 128, `rbf` with the last 20. Here the layer is written in that form, over
  the three blocks as separate matrices, and shown equal to the form over the whole matrix.
-/
import proofs.«124468_j36601711296775_2_alg».proof.Proof.EdgeSpec

noncomputable section

namespace Cert.EdgeSpec

/-- The layer's parameters, the first weight matrix as three row blocks. -/
structure BWts where
  W1s : Fin 128 → Fin 256 → EReal
  W1d : Fin 128 → Fin 256 → EReal
  W1r : Fin 20 → Fin 256 → EReal
  b1 : Fin 256 → EReal
  W2 : Fin 256 → Fin 256 → EReal
  b2 : Fin 256 → EReal
  Ws : Fin 256 → Fin 128 → EReal
  bs : Fin 128 → EReal
  Wv : Fin 256 → Fin 128 → EReal
  bv : Fin 128 → EReal
  cen : Fin 20 → EReal
  wid : Fin 20 → EReal

/-- The first affine layer, block by block: source features, destination features, radial basis values, bias. -/
def lin3 (Ws Wd : Fin 128 → Fin 256 → EReal) (Wr : Fin 20 → Fin 256 → EReal) (b1 : Fin 256 → EReal)
    (A B : Fin 128 → EReal) (r : Fin 20 → EReal) (n : Fin 256) : EReal :=
  ((∑ k : Fin 128, A k * Ws k n + ∑ k : Fin 128, B k * Wd k n) + ∑ k : Fin 20, r k * Wr k n) + b1 n

/-- The first hidden row, over blocks. -/
def bhid1 (w : BWts) (A B : Fin 128 → EReal) (ps pd : Fin 3 → EReal) (n : Fin 256) : EReal :=
  silu (lin3 w.W1s w.W1d w.W1r w.b1 A B (rbf w.cen w.wid (dist ps pd)) n)

/-- The second hidden row, over blocks. -/
def bhid2 (w : BWts) (A B : Fin 128 → EReal) (ps pd : Fin 3 → EReal) (n : Fin 256) : EReal :=
  silu (lin w.W2 w.b2 (bhid1 w A B ps pd) n)

/-- The scalar message, over blocks. -/
def bdsE (w : BWts) (A B : Fin 128 → EReal) (ps pd : Fin 3 → EReal) (j : Fin 128) : EReal :=
  lin w.Ws w.bs (bhid2 w A B ps pd) j

/-- The magnitude of the vector message, over blocks. -/
def bdvMag (w : BWts) (A B : Fin 128 → EReal) (ps pd : Fin 3 → EReal) (j : Fin 128) : EReal :=
  lin w.Wv w.bv (bhid2 w A B ps pd) j

/-- The vector message, over blocks. -/
def bdvE (w : BWts) (A B : Fin 128 → EReal) (ps pd : Fin 3 → EReal) (c : Fin 3) (j : Fin 128) : EReal :=
  dir ps pd c * bdvMag w A B ps pd j

/-- The three row blocks of a whole first weight matrix. -/
def Wts.blocks (w : Wts) : BWts where
  W1s k n := w.W1 ⟨k.val, by omega⟩ n
  W1d k n := w.W1 ⟨128 + k.val, by omega⟩ n
  W1r k n := w.W1 ⟨256 + k.val, by omega⟩ n
  b1 := w.b1
  W2 := w.W2
  b2 := w.b2
  Ws := w.Ws
  bs := w.bs
  Wv := w.Wv
  bv := w.bv
  cen := w.cen
  wid := w.wid

theorem bhid1_blocks (w : Wts) (A B : Fin 128 → EReal) (ps pd : Fin 3 → EReal) :
    bhid1 w.blocks A B ps pd = hid1 w A B ps pd := by
  funext n
  unfold bhid1 hid1
  rw [lin_cat]
  rfl

theorem bhid2_blocks (w : Wts) (A B : Fin 128 → EReal) (ps pd : Fin 3 → EReal) :
    bhid2 w.blocks A B ps pd = hid2 w A B ps pd := by
  funext n
  unfold bhid2 hid2
  rw [bhid1_blocks]
  rfl

/-- The scalar message is the same in both forms. -/
theorem bdsE_blocks (w : Wts) (A B : Fin 128 → EReal) (ps pd : Fin 3 → EReal) (j : Fin 128) :
    bdsE w.blocks A B ps pd j = dsE w A B ps pd j := by
  unfold bdsE dsE
  rw [bhid2_blocks]
  rfl

/-- The vector message is the same in both forms. -/
theorem bdvE_blocks (w : Wts) (A B : Fin 128 → EReal) (ps pd : Fin 3 → EReal) (c : Fin 3) (j : Fin 128) :
    bdvE w.blocks A B ps pd c j = dvE w A B ps pd c j := by
  unfold bdvE dvE bdvMag dvMag
  rw [bhid2_blocks]
  rfl

end Cert.EdgeSpec

end
-- ==== Proof.LibColumnFlatten.lean ====
/-
  Layout operations read at an index given by coordinates, for a column and for two trailing axes written as one.
  A column: the shape cast that makes a vector [a] a column [a, 1], the cast that gives a column a second unit axis,
  [a, 1] → [a, 1, 1], and the broadcast of such a column over two axes, [a, 1, 1] → [a, b, c]; each reads the operand at
  the row coordinate alone. Two trailing axes as one: the casts [a, b, c] → [a, n] and back, with n = b · c, under which
  the pair (p, j) and the single coordinate p · c + j name the same element.
-/
import Idealize.ShloMosaic.Lib.Pipeline.Value
import Idealize.ShloMosaic.Lib.ValueIdx

namespace Cert.Lib.ColumnFlatten

open Idealize.ShloMosaic Idealize.ShloMosaic.ValueIdx

variable {α : Type}

/-- A vector [a] cast to a column [a, 1] reads, at (i, o), the operand at i: both have row-major position i. -/
theorem shapeCast_a_a1_apply {a : ℕ} (x : (⟨1, ![a]⟩ : Shape).Idx → α)
    (h : (⟨1, ![a]⟩ : Shape).ShapeCasts ⟨2, ![a, 1]⟩) (i : Fin a) (o : Fin 1) :
    shapeCast ⟨2, ![a, 1]⟩ x h (ix2 i o) = x (ix1 i) :=
  shapeCast_apply x h _ _ (by
    have ho : o.val = 0 := by omega
    rw [Shape.rowMajor_val_two, Shape.rowMajor_val_one]
    show i.val = i.val * 1 + o.val
    rw [ho, Nat.mul_one, Nat.add_zero])

/-- A column [a, 1] cast to [a, 1, 1] reads, at (i, o, o'), the operand at (i, 0). -/
theorem shapeCast_a1_a11_apply {a : ℕ} (x : (⟨2, ![a, 1]⟩ : Shape).Idx → α)
    (h : (⟨2, ![a, 1]⟩ : Shape).ShapeCasts ⟨3, ![a, 1, 1]⟩) (i : Fin a) (o o' : Fin 1) :
    shapeCast ⟨3, ![a, 1, 1]⟩ x h (ix3 i o o') = x (ix2 i (0 : Fin 1)) :=
  shapeCast_apply x h _ _ (by
    have ho : o.val = 0 := by omega
    have ho' : o'.val = 0 := by omega
    rw [Shape.rowMajor_val_three, Shape.rowMajor_val_two]
    show i.val * 1 + 0 = (i.val * 1 + o.val) * 1 + o'.val
    omega)

/-- A column [a, 1, 1] broadcast to [a, b, c] reads, at (i, p, j), the operand at (i, 0, 0). -/
theorem broadcastTo_a11_abc_apply {a b c : ℕ} (x : (⟨3, ![a, 1, 1]⟩ : Shape).Idx → α)
    (h : (⟨3, ![a, 1, 1]⟩ : Shape).Broadcasts ⟨3, ![a, b, c]⟩) (i : Fin a) (p : Fin b) (j : Fin c) :
    broadcastTo ⟨3, ![a, b, c]⟩ x h (ix3 i p j) = x (ix3 i (0 : Fin 1) (0 : Fin 1)) := by
  refine broadcastTo_apply x h (ix3 i p j) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An [a, b, c] array cast to [a, n], n = b · c, reads at (i, p · c + j) the operand at (i, p, j). -/
theorem shapeCast_abc_an_apply {a b c n : ℕ} (x : (⟨3, ![a, b, c]⟩ : Shape).Idx → α)
    (h : (⟨3, ![a, b, c]⟩ : Shape).ShapeCasts ⟨2, ![a, n]⟩) (i : Fin a) (p : Fin b) (j : Fin c) (q : Fin n)
    (hq : q.val = p.val * c + j.val) :
    shapeCast ⟨2, ![a, n]⟩ x h (ix2 i q) = x (ix3 i p j) :=
  shapeCast_apply x h _ _ (by
    have hn : n = b * c := by
      have e := h
      simp [Shape.ShapeCasts, Shape.numel, Fin.prod_univ_succ] at e
      have ha : a ≠ 0 := fun h0 => by have := i.isLt; omega
      rcases e with e | e
      · omega
      · exact absurd e ha
    rw [Shape.rowMajor_val_three, Shape.rowMajor_val_two]
    show (i.val * b + p.val) * c + j.val = i.val * n + q.val
    rw [hq, hn, Nat.add_mul, Nat.mul_assoc, Nat.add_assoc])

/-- An [a, n] array cast to [a, b, c], n = b · c, reads at (i, p, j) the operand at (i, p · c + j). -/
theorem shapeCast_an_abc_apply {a b c n : ℕ} (x : (⟨2, ![a, n]⟩ : Shape).Idx → α)
    (h : (⟨2, ![a, n]⟩ : Shape).ShapeCasts ⟨3, ![a, b, c]⟩) (i : Fin a) (p : Fin b) (j : Fin c) (q : Fin n)
    (hq : q.val = p.val * c + j.val) :
    shapeCast ⟨3, ![a, b, c]⟩ x h (ix3 i p j) = x (ix2 i q) :=
  shapeCast_apply x h _ _ (by
    have hn : n = b * c := by
      have e := h
      simp [Shape.ShapeCasts, Shape.numel, Fin.prod_univ_succ] at e
      have ha : a ≠ 0 := fun h0 => by have := i.isLt; omega
      rcases e with e | e
      · omega
      · exact absurd e ha
    rw [Shape.rowMajor_val_three, Shape.rowMajor_val_two]
    show i.val * n + q.val = (i.val * b + p.val) * c + j.val
    rw [hq, hn, Nat.add_mul, Nat.mul_assoc, Nat.add_assoc])

end Cert.Lib.ColumnFlatten
-- ==== Proof.LibColumnBroadcast.lean ====
/-
  A column broadcast along the rows: an [a, 1] array broadcast to [a, b] reads, at (i, j), the operand's entry (i, 0).
-/
import Idealize.ShloMosaic.Lib.Pipeline.Value
import Idealize.ShloMosaic.Lib.ValueIdx

namespace Cert.Lib.ColumnBroadcast

open Idealize.ShloMosaic Idealize.ShloMosaic.ValueIdx

variable {α : Type}

/-- An [a, 1] column broadcast to [a, b] reads, at (i, j), the operand at (i, 0): the row coordinate is kept (also when
    a = 1, where the only row is row 0) and the unit axis is read at its one position. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) fun ax => ?_
  match ax with
  | ⟨0, _⟩ =>
    show i.val = if a = 1 then 0 else i.val
    split
    · have := i.isLt; omega
    · rfl
  | ⟨1, _⟩ => rfl

end Cert.Lib.ColumnBroadcast
-- ==== Proof.KernelRowA.lean ====
/-
  The geometric part of the kernel body, read row by row.

  Row `p` of a block of 4000 edges holds one edge. From the two position rows the body forms the displacement, its length
  (a sum of three squares under a square root, kept as a one-entry column), the twenty radial basis values of that length,
  and the guarded reciprocal of the length. Each is the corresponding function of `EdgeSpec` of row `p` alone.
-/
import proofs.«124468_j36601711296775_2_alg».proof.Proof.Gen.KernelIdeal.Skeleton
import proofs.«124468_j36601711296775_2_alg».proof.Proof.EdgeSpecBlocks
import proofs.«124468_j36601711296775_2_alg».proof.Proof.LibColumnFlatten
import proofs.«124468_j36601711296775_2_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelRow

open Cert.KernelIdeal Cert.KernelIdeal.Gen Cert.EdgeSpec Idealize.ShloMosaic Idealize.ShloMosaic.ValueIdx

/-- The pointwise transcendental operations read at an index. -/
theorem exp_apply {s : Shape} {φ : FTy} (a : FVec Ideal s φ) (i : s.Idx) : exp a i = Ideal.exp (a i) := rfl
theorem sqrt_apply {s : Shape} {φ : FTy} (a : FVec Ideal s φ) (i : s.Idx) : sqrt a i = Ideal.sqrt (a i) := rfl
theorem logistic_apply {s : Shape} {φ : FTy} (a : FVec Ideal s φ) (i : s.Idx) : logistic a i = Ideal.logistic (a i) := rfl

/-- Row `p` of a block of positions. -/
def posRow (v : Vec Ideal S4000x3 .f32) (p : Fin 4000) (c : Fin 3) : EReal := v (ix2 p c)

/-- A vector of twenty numbers as a function of its position. -/
def vec20 (v : Vec Ideal S20 .f32) (k : Fin 20) : EReal := v (ix1 k)

/-- The displacement: destination position minus source position, coordinate by coordinate. -/
theorem pay2_apply (v0 v2 : Vec Ideal S4000x3 .f32) (p : Fin 4000) (c : Fin 3) :
    k0_pay2 (F := Ideal) v0 v2 (ix2 p c) = rij (posRow v0 p) (posRow v2 p) c := by
  unfold k0_pay2
  simp only [shapeCast_self]
  rfl

/-- The length of the displacement: the lane sum of the three squares, cast to a column, under the square root. -/
theorem pay3_apply (v0 v2 : Vec Ideal S4000x3 .f32) (p : Fin 4000) (u : Fin 1) :
    k0_pay3 (F := Ideal) v0 v2 (ix2 p u) = dist (posRow v0 p) (posRow v2 p) := by
  unfold k0_pay3
  dsimp only
  show Ideal.sqrt (shapeCast S4000x1 _ shapeCasts_S4000_S4000x1 (ix2 p u)) = _
  rw [Cert.Lib.ColumnFlatten.shapeCast_a_a1_apply]
  refine congrArg Ideal.sqrt ?_
  refine (Ideal.multiReduction_add_single _ 0x00000000#32 reduces_S4000x3_S4000 (.inl rfl) rfl (ix1 p)).trans ?_
  refine Finset.sum_congr rfl fun c _ => ?_
  have e : reduces_S4000x3_S4000.lift (ix1 p) c = ix2 p c :=
    funext fun a => Fin.ext (by match a with | ⟨0, _⟩ => rfl | ⟨1, _⟩ => rfl)
  rw [e]
  exact congrArg₂ (· * ·) (pay2_apply v0 v2 p c) (pay2_apply v0 v2 p c)

/-- The radial basis values of the length: the length and the centres and widths are broadcast to a 4000 × 20 block, and
    `exp (0 - q·q)` is `exp (-(q·q))`. -/
theorem pay4_apply (v0 v2 : Vec Ideal S4000x3 .f32) (v9 v11 : Vec Ideal S20 .f32) (p : Fin 4000) (k : Fin 20) :
    k0_pay4 (F := Ideal) v0 v2 v9 v11 (ix2 p k) = rbf (vec20 v9) (vec20 v11) (dist (posRow v0 p) (posRow v2 p)) k := by
  unfold k0_pay4
  simp only [exp_apply, subf_apply, mulf_apply, divf_apply, addf_apply, broadcast_apply,
    Cert.Lib.ColumnBroadcast.broadcastTo_a1_ab_apply, broadcastTo_1b_ab_apply, shapeCast_a_1a_apply, pay3_apply]
  show Ideal.exp (Ideal.ofBits .f32 0x00000000#32 - _) = _
  rw [Ideal.ofBits_zero_f32, zero_sub]
  rfl

/-- Whether the length is positive. -/
theorem pay10_apply (v8 : FVec Ideal S4000x1 .f32) (i : S4000x1.Idx) :
    k0_pay10 (F := Ideal) v8 i = gt0 (v8 i) := by
  unfold k0_pay10
  show Ideal.cmp .ogt (v8 i) (Ideal.ofBits .f32 0x00000000#32) = _
  rw [Ideal.ofBits_zero_f32]
  rfl

/-- One over the length where it is positive (one over one elsewhere). -/
theorem pay11_apply (v8 : FVec Ideal S4000x1 .f32) (i : S4000x1.Idx) :
    k0_pay11 (F := Ideal) v8 i = Ideal.div 1 (Scalar.select (gt0 (v8 i)) (v8 i) 1) := by
  unfold k0_pay11
  show Ideal.div (Ideal.ofBits .f32 0x3F800000#32)
    (Scalar.select (Ideal.cmp .ogt (v8 i) (Ideal.ofBits .f32 0x00000000#32)) (v8 i) (Ideal.ofBits .f32 0x3F800000#32)) = _
  rw [Ideal.ofBits_zero_f32, Ideal.ofBits_one_f32]
  rfl

/-- The zero the guarded reciprocal falls back to. -/
theorem pay12_apply (i : S4000x1.Idx) : k0_pay12 (F := Ideal) i = 0 := by
  unfold k0_pay12
  show Ideal.ofBits .f32 0x00000000#32 = 0
  exact Ideal.ofBits_zero_f32

end Cert.KernelRow

end
-- ==== Proof.KernelRowB.lean ====
/-
  The matrix products of the kernel body, read row by row.

  Every product of the body contracts the one shared axis of a 4000-row left operand and a weight matrix into a zero
  accumulator, so its entry (p, n) is the plain sum over k of left (p, k) times right (k, n): row p of the result depends on
  row p of the left operand alone.
-/
import proofs.«124468_j36601711296775_2_alg».proof.Proof.Gen.KernelIdeal.Skeleton
import Idealize.ShloMosaic.Lib.ValueIdx
import Idealize.ShloMosaic.PureOps.Ideal.Laws

noncomputable section

namespace Cert.KernelRow

open Cert.KernelIdeal Cert.KernelIdeal.Gen Idealize.ShloMosaic Idealize.ShloMosaic.ValueIdx

theorem mm128_lhs0 (i : S4000x256.Idx) (q : dot_S4000x128_S128x256_S4000x256_1_0_0_1_n_n.contr.Idx) : (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem mm128_rhs1 (i : S4000x256.Idx) (q : dot_S4000x128_S128x256_S4000x256_1_0_0_1_n_n.contr.Idx) : (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl
/-- The matrix product into a zero accumulator, read at row `p` and column `n`: the sum over the contracted axis. -/
theorem mm128_apply {φ₁ φ₂ : FTy} (l : FVec Ideal S4000x128 φ₁) (r : FVec Ideal S128x256 φ₂) (p : Fin 4000) (n : Fin 256) :
    matmul dot_S4000x128_S128x256_S4000x256_1_0_0_1_n_n none l r (constant S4000x256 .f32 0x00000000#32) (ix2 p n) = ∑ k : Fin 128, l (ix2 p k) * r (ix2 k n) := by
  refine (Ideal.matmul_constant_zero_apply dot_S4000x128_S128x256_S4000x256_1_0_0_1_n_n none l r (ix2 p n)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p n) ((contrEquiv1 dot_S4000x128_S128x256_S4000x256_1_0_0_1_n_n 128 rfl rfl).symm k) = ix2 p k := funext fun a => Fin.ext (by
    match a with
    | ⟨0, _⟩ => exact mm128_lhs0 _ _
    | ⟨1, _⟩ => exact (dot_S4000x128_S128x256_S4000x256_1_0_0_1_n_n.lhsIdx_val_of_single rfl _ _).trans hk)
  have er : dot_S4000x128_S128x256_S4000x256_1_0_0_1_n_n.rhsIdx (ix2 p n) ((contrEquiv1 dot_S4000x128_S128x256_S4000x256_1_0_0_1_n_n 128 rfl rfl).symm k) = ix2 k n := funext fun a => Fin.ext (by
    match a with
    | ⟨0, _⟩ => exact (dot_S4000x128_S128x256_S4000x256_1_0_0_1_n_n.rhsIdx_val_of_single rfl _ _).trans hk
    | ⟨1, _⟩ => exact mm128_rhs1 _ _)
  rw [el, er]

theorem mm20_lhs0 (i : S4000x256.Idx) (q : dot_S4000x20_S20x256_S4000x256_1_0_0_1_n_n.contr.Idx) : (dot_S4000x20_S20x256_S4000x256_1_0_0_1_n_n.lhsIdx i q 0).val = (i 0).val := by
  unfold DotDims.lhsIdx
  rw [dif_neg (show ¬(0 : Fin S4000x20.rank) ∈ dot_S4000x20_S20x256_S4000x256_1_0_0_1_n_n.lhsBatch by decide), dif_pos (show (0 : Fin S4000x20.rank) ∈ dot_S4000x20_S20x256_S4000x256_1_0_0_1_n_n.lhsNonContracting by decide)]
  rfl
theorem mm20_rhs1 (i : S4000x256.Idx) (q : dot_S4000x20_S20x256_S4000x256_1_0_0_1_n_n.contr.Idx) : (dot_S4000x20_S20x256_S4000x256_1_0_0_1_n_n.rhsIdx i q 1).val = (i 1).val := by
  unfold DotDims.rhsIdx
  rw [dif_neg (show ¬(1 : Fin S20x256.rank) ∈ dot_S4000x20_S20x256_S4000x256_1_0_0_1_n_n.rhsBatch by decide), dif_pos (show (1 : Fin S20x256.rank) ∈ dot_S4000x20_S20x256_S4000x256_1_0_0_1_n_n.rhsNonContracting by decide)]
  rfl
/-- The matrix product into a zero accumulator, read at row `p` and column `n`: the sum over the contracted axis. -/
theorem mm20_apply {φ₁ φ₂ : FTy} (l : FVec Ideal S4000x20 φ₁) (r : FVec Ideal S20x256 φ₂) (p : Fin 4000) (n : Fin 256) :
    matmul dot_S4000x20_S20x256_S4000x256_1_0_0_1_n_n none l r (constant S4000x256 .f32 0x00000000#32) (ix2 p n) = ∑ k : Fin 20, l (ix2 p k) * r (ix2 k n) := by
  refine (Ideal.matmul_constant_zero_apply dot_S4000x20_S20x256_S4000x256_1_0_0_1_n_n none l r (ix2 p n)).trans ?_
  rw [← Equiv.sum_comp (contrEquiv1 dot_S4000x20_S20x256_S4000x256_1_0_0_1_n_n 20 rfl rfl).symm]
  refine Finset.sum_congr rfl fun k _ => ?_
  have hk := contrEquiv1_symm_val dot_S4000x20_S20x256_S4000x256_1_0_0_1_n_n 20 rfl rfl k
  have el : dot_S4000x20_S20x256_S4000x256_1_0_0_1_n_n.lhsIdx (ix2 p n) ((contrEquiv1 dot_S4000x20_S20x256_S4000x256_1_0_0_1_n_n 20 rfl rfl).symm k) = ix2 p k := funext fun a => Fin.ext (by
    match a with
    | ⟨0, _⟩ => exact mm20_lhs0 _ _
    | ⟨1, _⟩ => exact (dot_S4000x20_S20x256_S4000x256_1_0_0_1_n_n.lhsIdx_val_of_single rfl _ _).trans hk)
  have er : dot_S4000x20_S20x256_S4000x256_1_0_0_1_n_n.rhsIdx (ix2 p n) ((contrEquiv1 dot_S4000x20_S20x256_S4000x256_1_0_0_1_n_n 20 rfl rfl).symm k) = ix2 k n := funext fun a => Fin.ext (by
    match a with
    | ⟨0, _⟩ => exact (dot_S4000x20_S20x256_S4000x256_1_0_0_1_n_n.rhsIdx_val_of_single rfl _ _).trans hk
    | ⟨1, _⟩ => exact mm20_rhs1 _ _)
  rw [el, er]

theorem mm256_lhs0 (i : S4000x256.Idx) (q : dot_S4000x256_S256x256_S4000x256_1_0_0_1_n_n.contr.Idx) : (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem mm256_rhs1 (i : S4000x256.Idx) (q : dot_S4000x256_S256x256_S4000x256_1_0_0_1_n_n.contr.Idx) : (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl
/-- The matrix product into a zero accumulator, read at row `p` and column `n`: the sum over the contracted axis. -/
theorem mm256_apply {φ₁ φ₂ : FTy} (l : FVec Ideal S4000x256 φ₁) (r : FVec Ideal S256x256 φ₂) (p : Fin 4000) (n : Fin 256) :
    matmul dot_S4000x256_S256x256_S4000x256_1_0_0_1_n_n none l r (constant S4000x256 .f32 0x00000000#32) (ix2 p n) = ∑ k : Fin 256, l (ix2 p k) * r (ix2 k n) := by
  refine (Ideal.matmul_constant_zero_apply dot_S4000x256_S256x256_S4000x256_1_0_0_1_n_n none l r (ix2 p n)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p n) ((contrEquiv1 dot_S4000x256_S256x256_S4000x256_1_0_0_1_n_n 256 rfl rfl).symm k) = ix2 p k := funext fun a => Fin.ext (by
    match a with
    | ⟨0, _⟩ => exact mm256_lhs0 _ _
    | ⟨1, _⟩ => exact (dot_S4000x256_S256x256_S4000x256_1_0_0_1_n_n.lhsIdx_val_of_single rfl _ _).trans hk)
  have er : dot_S4000x256_S256x256_S4000x256_1_0_0_1_n_n.rhsIdx (ix2 p n) ((contrEquiv1 dot_S4000x256_S256x256_S4000x256_1_0_0_1_n_n 256 rfl rfl).symm k) = ix2 k n := funext fun a => Fin.ext (by
    match a with
    | ⟨0, _⟩ => exact (dot_S4000x256_S256x256_S4000x256_1_0_0_1_n_n.rhsIdx_val_of_single rfl _ _).trans hk
    | ⟨1, _⟩ => exact mm256_rhs1 _ _)
  rw [el, er]

theorem mmHead_lhs0 (i : S4000x128.Idx) (q : dot_S4000x256_S256x128_S4000x128_1_0_0_1_n_n.contr.Idx) : (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem mmHead_rhs1 (i : S4000x128.Idx) (q : dot_S4000x256_S256x128_S4000x128_1_0_0_1_n_n.contr.Idx) : (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl
/-- The matrix product into a zero accumulator, read at row `p` and column `n`: the sum over the contracted axis. -/
theorem mmHead_apply {φ₁ φ₂ : FTy} (l : FVec Ideal S4000x256 φ₁) (r : FVec Ideal S256x128 φ₂) (p : Fin 4000) (n : Fin 128) :
    matmul dot_S4000x256_S256x128_S4000x128_1_0_0_1_n_n none l r (constant S4000x128 .f32 0x00000000#32) (ix2 p n) = ∑ k : Fin 256, l (ix2 p k) * r (ix2 k n) := by
  refine (Ideal.matmul_constant_zero_apply dot_S4000x256_S256x128_S4000x128_1_0_0_1_n_n none l r (ix2 p n)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p n) ((contrEquiv1 dot_S4000x256_S256x128_S4000x128_1_0_0_1_n_n 256 rfl rfl).symm k) = ix2 p k := funext fun a => Fin.ext (by
    match a with
    | ⟨0, _⟩ => exact mmHead_lhs0 _ _
    | ⟨1, _⟩ => exact (dot_S4000x256_S256x128_S4000x128_1_0_0_1_n_n.lhsIdx_val_of_single rfl _ _).trans hk)
  have er : dot_S4000x256_S256x128_S4000x128_1_0_0_1_n_n.rhsIdx (ix2 p n) ((contrEquiv1 dot_S4000x256_S256x128_S4000x128_1_0_0_1_n_n 256 rfl rfl).symm k) = ix2 k n := funext fun a => Fin.ext (by
    match a with
    | ⟨0, _⟩ => exact (dot_S4000x256_S256x128_S4000x128_1_0_0_1_n_n.rhsIdx_val_of_single rfl _ _).trans hk
    | ⟨1, _⟩ => exact mmHead_rhs1 _ _)
  rw [el, er]

end Cert.KernelRow

end
-- ==== Proof.KernelRowC.lean ====
/-
  The perceptron of the kernel body, read row by row.

  Row `p` of the first product pair is the source and destination feature rows against the first two blocks of the
  first weight matrix; adding the radial-basis product and the bias gives the first affine layer in its block form
  (`EdgeSpec.lin3`); the activation, the second layer and the two heads follow, each entry a sum over the previous row.
-/
import proofs.«124468_j36601711296775_2_alg».proof.Proof.KernelRowA
import proofs.«124468_j36601711296775_2_alg».proof.Proof.KernelRowB

noncomputable section

namespace Cert.KernelRow

open Cert.KernelIdeal Cert.KernelIdeal.Gen Cert.EdgeSpec Idealize.ShloMosaic Idealize.ShloMosaic.ValueIdx

/-- Row `p` of a block of node features. -/
def featRow (v : Vec Ideal S4000x128 .bf16) (p : Fin 4000) (k : Fin 128) : EReal := v (ix2 p k)

/-- The layer's parameters as the kernel's windows hold them: the first weight matrix in three blocks. -/
def bw (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) : BWts where
  W1s k n := x5 (ix2 k n)
  W1d k n := x6 (ix2 k n)
  W1r k n := x7 (ix2 k n)
  b1 n := x8 (ix1 n)
  W2 k n := x9 (ix2 k n)
  b2 n := x10 (ix1 n)
  Ws k n := x11 (ix2 k n)
  bs n := x12 (ix1 n)
  Wv k n := x13 (ix2 k n)
  bv n := x14 (ix1 n)
  cen k := x15 (ix1 k)
  wid k := x16 (ix1 k)

/-- The source and destination products, added. -/
theorem pay5_apply (v24 v26 : Vec Ideal S4000x128 .bf16) (v28 v31 : Vec Ideal S128x256 .bf16) (p : Fin 4000) (n : Fin 256) :
    k0_pay5 (F := Ideal) v24 v26 v28 v31 (ix2 p n)
      = ∑ k : Fin 128, featRow v24 p k * v28 (ix2 k n) + ∑ k : Fin 128, featRow v26 p k * v31 (ix2 k n) := by
  unfold k0_pay5
  simp only [shapeCast_self, addf_apply, mm128_apply]
  rfl

/-- The radial block of the first weight matrix is used as loaded. -/
theorem pay6_eq (v35 : Vec Ideal S20x256 .f32) : k0_pay6 (F := Ideal) v35 = v35 := by
  unfold k0_pay6
  simp only [shapeCast_self]

/-- Two layers: the first affine layer completed (radial product and bias), the activation, the second affine layer, the
    activation. -/
theorem pay7_apply (v23 : FVec Ideal S4000x20 .f32) (v34 : FVec Ideal S4000x256 .f32) (v36 : FVec Ideal S20x256 .f32)
    (v39 : Vec Ideal S256 .f32) (v46 : Vec Ideal S256x256 .bf16) (v49 : Vec Ideal S256 .f32) (p : Fin 4000) (n : Fin 256) :
    k0_pay7 (F := Ideal) v23 v34 v36 (constant S4000x256 .f32 0x00000000#32) v39 v46 v49 (ix2 p n)
      = silu (lin (fun k n => v46 (ix2 k n)) (fun n => v49 (ix1 n))
          (fun m => silu ((v34 (ix2 p m) + ∑ k : Fin 20, v23 (ix2 p k) * v36 (ix2 k m)) + v39 (ix1 m))) n) := by
  unfold k0_pay7
  simp only [truncf_apply, mulf_apply, logistic_apply, addf_apply, broadcastTo_1b_ab_apply, shapeCast_a_1a_apply, shapeCast_self,
    mm256_apply, mm20_apply]
  rfl

/-- A head: an affine map of the second hidden row. -/
theorem pay8_apply (v23 : FVec Ideal S4000x20 .f32) (v34 : FVec Ideal S4000x256 .f32) (v36 : FVec Ideal S20x256 .f32)
    (v39 : Vec Ideal S256 .f32) (v46 : Vec Ideal S256x256 .bf16) (v49 : Vec Ideal S256 .f32) (v56 : Vec Ideal S256x128 .bf16)
    (v59 : Vec Ideal S128 .f32) (p : Fin 4000) (j : Fin 128) :
    k0_pay8 (F := Ideal) v23 v34 v36 (constant S4000x256 .f32 0x00000000#32) v39 v46 v49 v56 v59 (ix2 p j)
      = lin (fun k n => v56 (ix2 k n)) (fun n => v59 (ix1 n))
          (fun m => k0_pay7 (F := Ideal) v23 v34 v36 (constant S4000x256 .f32 0x00000000#32) v39 v46 v49 (ix2 p m)) j := by
  unfold k0_pay8
  simp only [addf_apply, broadcastTo_1b_ab_apply, shapeCast_a_1a_apply, shapeCast_self, mmHead_apply]
  rfl

theorem pay9_apply (v23 : FVec Ideal S4000x20 .f32) (v34 : FVec Ideal S4000x256 .f32) (v36 : FVec Ideal S20x256 .f32)
    (v39 : Vec Ideal S256 .f32) (v46 : Vec Ideal S256x256 .bf16) (v49 : Vec Ideal S256 .f32) (v63 : Vec Ideal S256x128 .bf16)
    (v66 : Vec Ideal S128 .f32) (p : Fin 4000) (j : Fin 128) :
    k0_pay9 (F := Ideal) v23 v34 v36 (constant S4000x256 .f32 0x00000000#32) v39 v46 v49 v63 v66 (ix2 p j)
      = lin (fun k n => v63 (ix2 k n)) (fun n => v66 (ix1 n))
          (fun m => k0_pay7 (F := Ideal) v23 v34 v36 (constant S4000x256 .f32 0x00000000#32) v39 v46 v49 (ix2 p m)) j := by
  unfold k0_pay9
  simp only [addf_apply, broadcastTo_1b_ab_apply, shapeCast_a_1a_apply, shapeCast_self, mmHead_apply]
  rfl

/-- The second hidden row of edge `p`, from the blocks the body loads. -/
theorem hidden_row (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) (p : Fin 4000) (n : Fin 256) :
    k0_pay7 (F := Ideal) (k0_pay4 x2 x3 x15 x16) (k0_pay5 x0 x1 x5 x6) (k0_pay6 x7) (constant S4000x256 .f32 0x00000000#32) x8 x9 x10 (ix2 p n)
      = bhid2 (bw x5 x6 x7 x8 x9 x10 x11 x12 x13 x14 x15 x16) (featRow x0 p) (featRow x1 p) (posRow x2 p) (posRow x3 p) n := by
  rw [pay7_apply, pay6_eq]
  simp only [pay5_apply, pay4_apply]
  rfl

/-- The scalar-message head of edge `p`. -/
theorem head_ds (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) (p : Fin 4000) (j : Fin 128) :
    k0_pay8 (F := Ideal) (k0_pay4 x2 x3 x15 x16) (k0_pay5 x0 x1 x5 x6) (k0_pay6 x7) (constant S4000x256 .f32 0x00000000#32) x8 x9 x10 x11 x12 (ix2 p j)
      = bdsE (bw x5 x6 x7 x8 x9 x10 x11 x12 x13 x14 x15 x16) (featRow x0 p) (featRow x1 p) (posRow x2 p) (posRow x3 p) j := by
  rw [pay8_apply]
  simp only [hidden_row x0 x1 x2 x3 x4 x5 x6 x7 x8 x9 x10 x11 x12 x13 x14 x15 x16]
  rfl

/-- The vector-message magnitude head of edge `p`. -/
theorem head_dv (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) (p : Fin 4000) (j : Fin 128) :
    k0_pay9 (F := Ideal) (k0_pay4 x2 x3 x15 x16) (k0_pay5 x0 x1 x5 x6) (k0_pay6 x7) (constant S4000x256 .f32 0x00000000#32) x8 x9 x10 x13 x14 (ix2 p j)
      = bdvMag (bw x5 x6 x7 x8 x9 x10 x11 x12 x13 x14 x15 x16) (featRow x0 p) (featRow x1 p) (posRow x2 p) (posRow x3 p) j := by
  rw [pay9_apply]
  simp only [hidden_row x0 x1 x2 x3 x4 x5 x6 x7 x8 x9 x10 x11 x12 x13 x14 x15 x16]
  rfl

end Cert.KernelRow

end
-- ==== Proof.KernelRowD.lean ====
/-
  The last part of the kernel body, read row by row: the unit direction, the three scaled copies of the vector head, the
  four pieces laid side by side, and the validity factor.

  The stored block has 512 columns: columns 0..127 are the scalar head, columns 128·(c+1) .. 128·(c+1)+127 are coordinate
  `c` of the direction times the vector head; every entry is then multiplied by the row's validity number.
-/
import proofs.«124468_j36601711296775_2_alg».proof.Proof.KernelRowC

noncomputable section

namespace Cert.KernelRow

open Cert.KernelIdeal Cert.KernelIdeal.Gen Cert.EdgeSpec Idealize.ShloMosaic Idealize.ShloMosaic.ValueIdx

theorem concat4_0 {α : Type} (y0 y1 y2 y3 : S4000x128.Idx → α)
    (h : Shape.Concatenates (([⟨S4000x128, y0⟩, ⟨S4000x128, y1⟩, ⟨S4000x128, y2⟩, ⟨S4000x128, y3⟩] : List ((s : Shape) × (s.Idx → α))).map (·.1)) S4000x512 1)
    (p : Fin 4000) (j : Fin 128) (q : Fin 512) (hq : q.val = 0 + j.val) :
    concatenate S4000x512 1 [⟨S4000x128, y0⟩, ⟨S4000x128, y1⟩, ⟨S4000x128, y2⟩, ⟨S4000x128, y3⟩] h (ix2 p q) = y0 (ix2 p j) :=
  concatenate_apply_piece (1 : Fin S4000x512.rank) [⟨S4000x128, y0⟩, ⟨S4000x128, y1⟩, ⟨S4000x128, y2⟩, ⟨S4000x128, y3⟩] h (ix2 p q) 0 (show (0 : ℕ) < 4 by decide) S4000x128 y0 rfl rfl 0 (by rfl)
    (ix2 p j) (fun b hb => by
      match b with
      | ⟨0, _⟩ => rfl
      | ⟨1, _⟩ => exact absurd rfl hb)
    (by show 0 + j.val = q.val; omega)

theorem concat4_1 {α : Type} (y0 y1 y2 y3 : S4000x128.Idx → α)
    (h : Shape.Concatenates (([⟨S4000x128, y0⟩, ⟨S4000x128, y1⟩, ⟨S4000x128, y2⟩, ⟨S4000x128, y3⟩] : List ((s : Shape) × (s.Idx → α))).map (·.1)) S4000x512 1)
    (p : Fin 4000) (j : Fin 128) (q : Fin 512) (hq : q.val = 128 + j.val) :
    concatenate S4000x512 1 [⟨S4000x128, y0⟩, ⟨S4000x128, y1⟩, ⟨S4000x128, y2⟩, ⟨S4000x128, y3⟩] h (ix2 p q) = y1 (ix2 p j) :=
  concatenate_apply_piece (1 : Fin S4000x512.rank) [⟨S4000x128, y0⟩, ⟨S4000x128, y1⟩, ⟨S4000x128, y2⟩, ⟨S4000x128, y3⟩] h (ix2 p q) 1 (show (1 : ℕ) < 4 by decide) S4000x128 y1 rfl rfl 128 (by rfl)
    (ix2 p j) (fun b hb => by
      match b with
      | ⟨0, _⟩ => rfl
      | ⟨1, _⟩ => exact absurd rfl hb)
    (by show 128 + j.val = q.val; omega)

theorem concat4_2 {α : Type} (y0 y1 y2 y3 : S4000x128.Idx → α)
    (h : Shape.Concatenates (([⟨S4000x128, y0⟩, ⟨S4000x128, y1⟩, ⟨S4000x128, y2⟩, ⟨S4000x128, y3⟩] : List ((s : Shape) × (s.Idx → α))).map (·.1)) S4000x512 1)
    (p : Fin 4000) (j : Fin 128) (q : Fin 512) (hq : q.val = 256 + j.val) :
    concatenate S4000x512 1 [⟨S4000x128, y0⟩, ⟨S4000x128, y1⟩, ⟨S4000x128, y2⟩, ⟨S4000x128, y3⟩] h (ix2 p q) = y2 (ix2 p j) :=
  concatenate_apply_piece (1 : Fin S4000x512.rank) [⟨S4000x128, y0⟩, ⟨S4000x128, y1⟩, ⟨S4000x128, y2⟩, ⟨S4000x128, y3⟩] h (ix2 p q) 2 (show (2 : ℕ) < 4 by decide) S4000x128 y2 rfl rfl 256 (by rfl)
    (ix2 p j) (fun b hb => by
      match b with
      | ⟨0, _⟩ => rfl
      | ⟨1, _⟩ => exact absurd rfl hb)
    (by show 256 + j.val = q.val; omega)

theorem concat4_3 {α : Type} (y0 y1 y2 y3 : S4000x128.Idx → α)
    (h : Shape.Concatenates (([⟨S4000x128, y0⟩, ⟨S4000x128, y1⟩, ⟨S4000x128, y2⟩, ⟨S4000x128, y3⟩] : List ((s : Shape) × (s.Idx → α))).map (·.1)) S4000x512 1)
    (p : Fin 4000) (j : Fin 128) (q : Fin 512) (hq : q.val = 384 + j.val) :
    concatenate S4000x512 1 [⟨S4000x128, y0⟩, ⟨S4000x128, y1⟩, ⟨S4000x128, y2⟩, ⟨S4000x128, y3⟩] h (ix2 p q) = y3 (ix2 p j) :=
  concatenate_apply_piece (1 : Fin S4000x512.rank) [⟨S4000x128, y0⟩, ⟨S4000x128, y1⟩, ⟨S4000x128, y2⟩, ⟨S4000x128, y3⟩] h (ix2 p q) 3 (show (3 : ℕ) < 4 by decide) S4000x128 y3 rfl rfl 384 (by rfl)
    (ix2 p j) (fun b hb => by
      match b with
      | ⟨0, _⟩ => rfl
      | ⟨1, _⟩ => exact absurd rfl hb)
    (by show 384 + j.val = q.val; omega)

/-- Columns 0..127 of the stored block: the scalar head times the validity number. -/
theorem pay1_head (v4 : FVec Ideal S4000x3 .f32) (v62 v69 : FVec Ideal S4000x128 .f32) (v75 : IVec S4000x1 1)
    (v77 v78 : FVec Ideal S4000x1 .f32) (v92 : Vec Ideal S4000x1 .f32) (p : Fin 4000) (j : Fin 128) (q : Fin 512) (hq : q.val = 0 + j.val) :
    k0_pay1 (F := Ideal) v4 v62 v69 v75 v77 v78 v92 (ix2 p q) = v62 (ix2 p j) * v92 (ix2 p (0 : Fin 1)) := by
  unfold k0_pay1
  simp only [mulf_apply, Cert.Lib.ColumnBroadcast.broadcastTo_a1_ab_apply, shapeCast_self]
  rw [concat4_0 (p := p) (j := j) (q := q) (hq := hq)]

/-- Columns of coordinate `c`: the displacement coordinate times the guarded reciprocal length, times the vector head,
    times the validity number. -/
theorem pay1_vec (v4 : FVec Ideal S4000x3 .f32) (v62 v69 : FVec Ideal S4000x128 .f32) (v75 : IVec S4000x1 1)
    (v77 v78 : FVec Ideal S4000x1 .f32) (v92 : Vec Ideal S4000x1 .f32) (p : Fin 4000) (c : Fin 3) (j : Fin 128) (q : Fin 512)
    (hq : q.val = 128 + 128 * c.val + j.val) :
    k0_pay1 (F := Ideal) v4 v62 v69 v75 v77 v78 v92 (ix2 p q)
      = ((v4 (ix2 p c) * Scalar.select (v75 (ix2 p (0 : Fin 1))) (v77 (ix2 p (0 : Fin 1))) (v78 (ix2 p (0 : Fin 1)))) * v69 (ix2 p j))
        * v92 (ix2 p (0 : Fin 1)) := by
  unfold k0_pay1
  simp only [mulf_apply, Cert.Lib.ColumnBroadcast.broadcastTo_a1_ab_apply, shapeCast_self]
  match c, hq with
  | ⟨0, _⟩, hq =>
    rw [concat4_1 (p := p) (j := j) (q := q) (hq := by simpa using hq)]
    simp only [mulf_apply, Cert.Lib.ColumnBroadcast.broadcastTo_a1_ab_apply, select_apply,
      slice2_axis1_apply 0 _ _ p (0 : Fin 1) (0 : Fin 3) rfl]
    rfl
  | ⟨1, _⟩, hq =>
    rw [concat4_2 (p := p) (j := j) (q := q) (hq := by simpa using hq)]
    simp only [mulf_apply, Cert.Lib.ColumnBroadcast.broadcastTo_a1_ab_apply, select_apply,
      slice2_axis1_apply 1 _ _ p (0 : Fin 1) (1 : Fin 3) rfl]
    rfl
  | ⟨2, _⟩, hq =>
    rw [concat4_3 (p := p) (j := j) (q := q) (hq := by simpa using hq)]
    simp only [mulf_apply, Cert.Lib.ColumnBroadcast.broadcastTo_a1_ab_apply, select_apply,
      slice2_axis1_apply 2 _ _ p (0 : Fin 1) (2 : Fin 3) rfl]
    rfl

/-- The value the body stores, as one term of the blocks it loads. -/
def payload (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) : FVec Ideal S4000x512 .f32 :=
  k0_pay1 (k0_pay2 x2 x3)
    (k0_pay8 (k0_pay4 x2 x3 x15 x16) (k0_pay5 x0 x1 x5 x6) (k0_pay6 x7) (constant S4000x256 .f32 0x00000000#32) x8 x9 x10 x11 x12)
    (k0_pay9 (k0_pay4 x2 x3 x15 x16) (k0_pay5 x0 x1 x5 x6) (k0_pay6 x7) (constant S4000x256 .f32 0x00000000#32) x8 x9 x10 x13 x14)
    (k0_pay10 (k0_pay3 x2 x3)) (k0_pay11 (k0_pay3 x2 x3)) (k0_pay12 (F := Ideal)) x4

/-- Row `p`, scalar part: the scalar message of the edge in row `p`, times its validity number. -/
theorem payload_ds (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) (p : Fin 4000) (j : Fin 128) (q : Fin 512) (hq : q.val = j.val) :
    payload x0 x1 x2 x3 x4 x5 x6 x7 x8 x9 x10 x11 x12 x13 x14 x15 x16 (ix2 p q)
      = bdsE (bw x5 x6 x7 x8 x9 x10 x11 x12 x13 x14 x15 x16) (featRow x0 p) (featRow x1 p) (posRow x2 p) (posRow x3 p) j
        * x4 (ix2 p (0 : Fin 1)) := by
  unfold payload
  rw [pay1_head (p := p) (j := j) (q := q) (hq := by omega), head_ds x0 x1 x2 x3 x4 x5 x6 x7 x8 x9 x10 x11 x12 x13 x14 x15 x16]

/-- Row `p`, vector part: coordinate `c` of the vector message of the edge in row `p`, times its validity number. -/
theorem payload_dv (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) (p : Fin 4000) (c : Fin 3) (j : Fin 128) (q : Fin 512) (hq : q.val = 128 + 128 * c.val + j.val) :
    payload x0 x1 x2 x3 x4 x5 x6 x7 x8 x9 x10 x11 x12 x13 x14 x15 x16 (ix2 p q)
      = bdvE (bw x5 x6 x7 x8 x9 x10 x11 x12 x13 x14 x15 x16) (featRow x0 p) (featRow x1 p) (posRow x2 p) (posRow x3 p) c j
        * x4 (ix2 p (0 : Fin 1)) := by
  unfold payload
  rw [pay1_vec (p := p) (c := c) (j := j) (q := q) (hq := hq), head_dv x0 x1 x2 x3 x4 x5 x6 x7 x8 x9 x10 x11 x12 x13 x14 x15 x16, pay2_apply, pay10_apply, pay11_apply, pay12_apply, pay3_apply]
  rfl

end Cert.KernelRow

end
-- ==== Proof.KernelBlocks.lean ====
/-
  The blocks of the kernel region, read off the arrays the region finds.

  The grid has 125 points. At point `t` each of the five per-edge windows (source and destination features, source and
  destination positions, validity) holds rows 4000·t .. 4000·t + 3999 of its array, and the output window holds the same rows
  of the output; every parameter window holds its whole array at every point. So entry `p` of a per-edge block is edge
  `4000·t + p`.
-/
import proofs.«124468_j36601711296775_2_alg».proof.Proof.KernelIdealFrameP
import proofs.«124468_j36601711296775_2_alg».proof.Proof.KernelRowD

set_option maxRecDepth 16384

noncomputable section

namespace Cert.KernelBlocks

open Cert.KernelIdeal Cert.KernelIdeal.Gen Cert.KernelIdeal.GenP Cert.KernelRow Cert.EdgeSpec
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- What the body leaves in the output window's buffer is the stored value: one store through the whole buffer, of loads
    through whole buffers. -/
theorem out_eq (x0 x1 : Vec Ideal S4000x128 .bf16) (x2 x3 : Vec Ideal S4000x3 .f32) (x4 : Vec Ideal S4000x1 .f32) (x5 x6 : Vec Ideal S128x256 .bf16) (x7 : Vec Ideal S20x256 .f32) (x8 : Vec Ideal S256 .f32) (x9 : Vec Ideal S256x256 .bf16) (x10 : Vec Ideal S256 .f32) (x11 : Vec Ideal S256x128 .bf16) (x12 : Vec Ideal S128 .f32) (x13 : Vec Ideal S256x128 .bf16) (x14 : Vec Ideal S128 .f32) (x15 x16 : Vec Ideal S20 .f32) :
    GenP.out0_17 (F := Ideal) x0 x1 x2 x3 x4 x5 x6 x7 x8 x9 x10 x11 x12 x13 x14 x15 x16
      = payload x0 x1 x2 x3 x4 x5 x6 x7 x8 x9 x10 x11 x12 x13 x14 x15 x16 := by
  unfold GenP.out0_17
  rw [View.canon_unit_zero hz2]
  simp only [View.ld_unit_zero (S := S4000x3) hz2, View.ld_unit_zero (S := S20) hz1, View.ld_unit_zero (S := S4000x128) hz2,
    View.ld_unit_zero (S := S128x256) hz2, View.ld_unit_zero (S := S20x256) hz2, View.ld_unit_zero (S := S256) hz1,
    View.ld_unit_zero (S := S256x256) hz2, View.ld_unit_zero (S := S256x128) hz2, View.ld_unit_zero (S := S128) hz1,
    View.ld_unit_zero (S := S4000x1) hz2]
  rfl

/-- The index maps, decided over the 125 grid points: the per-edge windows and the output window sit at block row `t`, the
    parameter windows at block 0. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_17.index t (0 : Fin 2) = t.val
    ∧ win0_17.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_9.index t (0 : Fin 2) = 0
    ∧ win0_9.index t (1 : Fin 2) = 0
    ∧ win0_11.index t (0 : Fin 2) = 0
    ∧ win0_11.index t (1 : Fin 2) = 0
    ∧ win0_13.index t (0 : Fin 2) = 0
    ∧ win0_13.index t (1 : Fin 2) = 0
    ∧ win0_8.index t (0 : Fin 1) = 0
    ∧ win0_10.index t (0 : Fin 1) = 0
    ∧ win0_12.index t (0 : Fin 1) = 0
    ∧ win0_14.index t (0 : Fin 1) = 0
    ∧ win0_15.index t (0 : Fin 1) = 0
    ∧ win0_16.index t (0 : Fin 1) = 0 :=
  (by decide +kernel : ∀ t : Fin grid0.N, _)

/-- The edge that row `p` of a per-edge block holds at grid point `t`. -/
def edgeOf (t : Fin cfg0.N) (p : Fin 4000) : Fin 500000 :=
  ⟨4000 * t.val + p.val, by have h : t.val < 125 := lt_of_lt_of_eq t.isLt GenP.N_0; have := p.isLt; omega⟩

theorem iblk0_apply (c : Dev nD) (t : Fin cfg0.N) (p : Fin 4000) (k : Fin 128) :
    GenP.iblk m c 0 t (ix2 p k) = GenP.V m c main_v12 (ix2 (edgeOf t p) k) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v12 (((cfg0.win 0).blk t).view.emb (ix2 p k)) = _
  refine congrArg (GenP.V m c main_v12) (funext fun a => Fin.ext ?_)
  match a with
  | ⟨0, _⟩ => show win0_0.index t (0 : Fin 2) * 4000 + 1 * p.val = 4000 * t.val + p.val; omega
  | ⟨1, _⟩ => show win0_0.index t (1 : Fin 2) * 128 + 1 * k.val = k.val; omega

theorem iblk1_apply (c : Dev nD) (t : Fin cfg0.N) (p : Fin 4000) (k : Fin 128) :
    GenP.iblk m c 1 t (ix2 p k) = GenP.V m c main_v19 (ix2 (edgeOf t p) k) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v19 (((cfg0.win 1).blk t).view.emb (ix2 p k)) = _
  refine congrArg (GenP.V m c main_v19) (funext fun a => Fin.ext ?_)
  match a with
  | ⟨0, _⟩ => show win0_1.index t (0 : Fin 2) * 4000 + 1 * p.val = 4000 * t.val + p.val; omega
  | ⟨1, _⟩ => show win0_1.index t (1 : Fin 2) * 128 + 1 * k.val = k.val; omega

theorem iblk2_apply (c : Dev nD) (t : Fin cfg0.N) (p : Fin 4000) (k : Fin 3) :
    GenP.iblk m c 2 t (ix2 p k) = GenP.V m c main_v26 (ix2 (edgeOf t p) k) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v26 (((cfg0.win 2).blk t).view.emb (ix2 p k)) = _
  refine congrArg (GenP.V m c main_v26) (funext fun a => Fin.ext ?_)
  match a with
  | ⟨0, _⟩ => show win0_2.index t (0 : Fin 2) * 4000 + 1 * p.val = 4000 * t.val + p.val; omega
  | ⟨1, _⟩ => show win0_2.index t (1 : Fin 2) * 3 + 1 * k.val = k.val; omega

theorem iblk3_apply (c : Dev nD) (t : Fin cfg0.N) (p : Fin 4000) (k : Fin 3) :
    GenP.iblk m c 3 t (ix2 p k) = GenP.V m c main_v33 (ix2 (edgeOf t p) k) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v33 (((cfg0.win 3).blk t).view.emb (ix2 p k)) = _
  refine congrArg (GenP.V m c main_v33) (funext fun a => Fin.ext ?_)
  match a with
  | ⟨0, _⟩ => show win0_3.index t (0 : Fin 2) * 4000 + 1 * p.val = 4000 * t.val + p.val; omega
  | ⟨1, _⟩ => show win0_3.index t (1 : Fin 2) * 3 + 1 * k.val = k.val; omega

theorem iblk4_apply (c : Dev nD) (t : Fin cfg0.N) (p : Fin 4000) (k : Fin 1) :
    GenP.iblk m c 4 t (ix2 p k) = GenP.V m c main_v4 (ix2 (edgeOf t p) k) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v4 (((cfg0.win 4).blk t).view.emb (ix2 p k)) = _
  refine congrArg (GenP.V m c main_v4) (funext fun a => Fin.ext ?_)
  match a with
  | ⟨0, _⟩ => show win0_4.index t (0 : Fin 2) * 4000 + 1 * p.val = 4000 * t.val + p.val; omega
  | ⟨1, _⟩ => show win0_4.index t (1 : Fin 2) * 1 + 1 * k.val = k.val; omega

theorem iblk5_apply (c : Dev nD) (t : Fin cfg0.N) (k : Fin 128) (n : Fin 256) :
    GenP.iblk m c 5 t (ix2 k n) = GenP.V m c main_v35 (ix2 k n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v35 (((cfg0.win 5).blk t).view.emb (ix2 k n)) = _
  refine congrArg (GenP.V m c main_v35) (funext fun a => Fin.ext ?_)
  match a with
  | ⟨0, _⟩ => show win0_5.index t (0 : Fin 2) * 128 + 1 * k.val = k.val; omega
  | ⟨1, _⟩ => show win0_5.index t (1 : Fin 2) * 256 + 1 * n.val = n.val; omega

theorem iblk6_apply (c : Dev nD) (t : Fin cfg0.N) (k : Fin 128) (n : Fin 256) :
    GenP.iblk m c 6 t (ix2 k n) = GenP.V m c main_v37 (ix2 k n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v37 (((cfg0.win 6).blk t).view.emb (ix2 k n)) = _
  refine congrArg (GenP.V m c main_v37) (funext fun a => Fin.ext ?_)
  match a with
  | ⟨0, _⟩ => show win0_6.index t (0 : Fin 2) * 128 + 1 * k.val = k.val; omega
  | ⟨1, _⟩ => show win0_6.index t (1 : Fin 2) * 256 + 1 * n.val = n.val; omega

theorem iblk7_apply (c : Dev nD) (t : Fin cfg0.N) (k : Fin 20) (n : Fin 256) :
    GenP.iblk m c 7 t (ix2 k n) = GenP.V m c main_v38 (ix2 k n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v38 (((cfg0.win 7).blk t).view.emb (ix2 k n)) = _
  refine congrArg (GenP.V m c main_v38) (funext fun a => Fin.ext ?_)
  match a with
  | ⟨0, _⟩ => show win0_7.index t (0 : Fin 2) * 20 + 1 * k.val = k.val; omega
  | ⟨1, _⟩ => show win0_7.index t (1 : Fin 2) * 256 + 1 * n.val = n.val; omega

theorem iblk9_apply (c : Dev nD) (t : Fin cfg0.N) (k : Fin 256) (n : Fin 256) :
    GenP.iblk m c 9 t (ix2 k n) = GenP.V m c main_v39 (ix2 k n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v39 (((cfg0.win 9).blk t).view.emb (ix2 k n)) = _
  refine congrArg (GenP.V m c main_v39) (funext fun a => Fin.ext ?_)
  match a with
  | ⟨0, _⟩ => show win0_9.index t (0 : Fin 2) * 256 + 1 * k.val = k.val; omega
  | ⟨1, _⟩ => show win0_9.index t (1 : Fin 2) * 256 + 1 * n.val = n.val; omega

theorem iblk11_apply (c : Dev nD) (t : Fin cfg0.N) (k : Fin 256) (n : Fin 128) :
    GenP.iblk m c 11 t (ix2 k n) = GenP.V m c main_v40 (ix2 k n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v40 (((cfg0.win 11).blk t).view.emb (ix2 k n)) = _
  refine congrArg (GenP.V m c main_v40) (funext fun a => Fin.ext ?_)
  match a with
  | ⟨0, _⟩ => show win0_11.index t (0 : Fin 2) * 256 + 1 * k.val = k.val; omega
  | ⟨1, _⟩ => show win0_11.index t (1 : Fin 2) * 128 + 1 * n.val = n.val; omega

theorem iblk13_apply (c : Dev nD) (t : Fin cfg0.N) (k : Fin 256) (n : Fin 128) :
    GenP.iblk m c 13 t (ix2 k n) = GenP.V m c main_v41 (ix2 k n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_v41 (((cfg0.win 13).blk t).view.emb (ix2 k n)) = _
  refine congrArg (GenP.V m c main_v41) (funext fun a => Fin.ext ?_)
  match a with
  | ⟨0, _⟩ => show win0_13.index t (0 : Fin 2) * 256 + 1 * k.val = k.val; omega
  | ⟨1, _⟩ => show win0_13.index t (1 : Fin 2) * 128 + 1 * n.val = n.val; omega

theorem iblk8_apply (c : Dev nD) (t : Fin cfg0.N) (n : Fin 256) :
    GenP.iblk m c 8 t (ix1 n) = GenP.V m c main_arg5 (ix1 n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_arg5 (((cfg0.win 8).blk t).view.emb (ix1 n)) = _
  refine congrArg (GenP.V m c main_arg5) (funext fun a => Fin.ext ?_)
  match a with
  | ⟨0, _⟩ => show win0_8.index t (0 : Fin 1) * 256 + 1 * n.val = n.val; omega

theorem iblk10_apply (c : Dev nD) (t : Fin cfg0.N) (n : Fin 256) :
    GenP.iblk m c 10 t (ix1 n) = GenP.V m c main_arg7 (ix1 n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_arg7 (((cfg0.win 10).blk t).view.emb (ix1 n)) = _
  refine congrArg (GenP.V m c main_arg7) (funext fun a => Fin.ext ?_)
  match a with
  | ⟨0, _⟩ => show win0_10.index t (0 : Fin 1) * 256 + 1 * n.val = n.val; omega

theorem iblk12_apply (c : Dev nD) (t : Fin cfg0.N) (n : Fin 128) :
    GenP.iblk m c 12 t (ix1 n) = GenP.V m c main_arg9 (ix1 n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_arg9 (((cfg0.win 12).blk t).view.emb (ix1 n)) = _
  refine congrArg (GenP.V m c main_arg9) (funext fun a => Fin.ext ?_)
  match a with
  | ⟨0, _⟩ => show win0_12.index t (0 : Fin 1) * 128 + 1 * n.val = n.val; omega

theorem iblk14_apply (c : Dev nD) (t : Fin cfg0.N) (n : Fin 128) :
    GenP.iblk m c 14 t (ix1 n) = GenP.V m c main_arg11 (ix1 n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_arg11 (((cfg0.win 14).blk t).view.emb (ix1 n)) = _
  refine congrArg (GenP.V m c main_arg11) (funext fun a => Fin.ext ?_)
  match a with
  | ⟨0, _⟩ => show win0_14.index t (0 : Fin 1) * 128 + 1 * n.val = n.val; omega

theorem iblk15_apply (c : Dev nD) (t : Fin cfg0.N) (n : Fin 20) :
    GenP.iblk m c 15 t (ix1 n) = GenP.V m c main_arg12 (ix1 n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_arg12 (((cfg0.win 15).blk t).view.emb (ix1 n)) = _
  refine congrArg (GenP.V m c main_arg12) (funext fun a => Fin.ext ?_)
  match a with
  | ⟨0, _⟩ => show win0_15.index t (0 : Fin 1) * 20 + 1 * n.val = n.val; omega

theorem iblk16_apply (c : Dev nD) (t : Fin cfg0.N) (n : Fin 20) :
    GenP.iblk m c 16 t (ix1 n) = GenP.V m c main_arg13 (ix1 n) := by
  obtain ⟨f0, f1, f2, f3, f4, f5, f6, f7, f8, f9, f10, f11, f12, f13, f14, f15, f16, f17, f18, f19, f20, f21, f22, f23, f24, f25, f26, f27, f28, f29⟩ := idx_facts t
  show GenP.V m c main_arg13 (((cfg0.win 16).blk t).view.emb (ix1 n)) = _
  refine congrArg (GenP.V m c main_arg13) (funext fun a => Fin.ext ?_)
  match a with
  | ⟨0, _⟩ => show win0_16.index t (0 : Fin 1) * 20 + 1 * n.val = n.val; omega

/-- The output window's block at point `t`: rows 4000·t .. 4000·t + 3999, all 512 columns. -/
theorem oblk_emb (t : Fin cfg0.N) (p : Fin 4000) (q : Fin 512) :
    ((cfg0.win 17).blk t).view.emb (ix2 p q) = ix2 (edgeOf t p) q := by
  obtain ⟨f0, f1, f2, f3, f4, f5, f6, f7, f8, f9, f10, f11, f12, f13, f14, f15, f16, f17, f18, f19, f20, f21, f22, f23, f24, f25, f26, f27, f28, f29⟩ := idx_facts t
  refine funext fun a => Fin.ext ?_
  match a with
  | ⟨0, _⟩ => show win0_17.index t (0 : Fin 2) * 4000 + 1 * p.val = 4000 * t.val + p.val; omega
  | ⟨1, _⟩ => show win0_17.index t (1 : Fin 2) * 512 + 1 * q.val = q.val; omega

end Cert.KernelBlocks

end
-- ==== Proof.EdgeArrays.lean ====
/-
  The two results of the layer as whole-array functions of the argument arrays.

  Edge `e` reads row `e` of four gathered arrays — the scalar features of its source and destination nodes and the two
  nodes' positions — and the layer's parameters; its scalar message is `EdgeSpec.dsE` of them and its vector message
  `EdgeSpec.dvE`. Every node then receives the sum of the messages of the edges that end at it (a scatter-add by the
  destination index into zeros), added to its own features.
-/
import proofs.«124468_j36601711296775_2_alg».proof.Proof.Gen.ReferenceIdeal.Read
import proofs.«124468_j36601711296775_2_alg».proof.Proof.EdgeSpec
import Idealize.ShloMosaic.Lib.ValueIdx

noncomputable section

namespace Cert.EdgeArrays

open Cert.ReferenceIdeal Cert.ReferenceIdeal.Read Idealize.ShloMosaic Idealize.ShloMosaic.ValueIdx

/-- The layer's parameters read off the argument arrays. -/
def wts (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) : EdgeSpec.Wts where
  W1 k n := x4 (ix2 k n)
  b1 n := x5 (ix1 n)
  W2 k n := x6 (ix2 k n)
  b2 n := x7 (ix1 n)
  Ws k n := x8 (ix2 k n)
  bs n := x9 (ix1 n)
  Wv k n := x10 (ix2 k n)
  bv n := x11 (ix1 n)
  cen k := x12 (ix1 k)
  wid k := x13 (ix1 k)

/-- The scalar features of edge `e`'s source node. -/
def srcFeat (x0 : (⟨S50000x128, .f32⟩ : BufTy).Contents (Elt Ideal)) (x3 : (⟨S2x500000, .i32⟩ : BufTy).Contents (Elt Ideal)) (e : Fin 500000) (k : Fin 128) : EReal :=
  val_main_v38 (F := Ideal) x0 x3 (ix2 e k)
/-- The scalar features of edge `e`'s destination node. -/
def dstFeat (x0 : (⟨S50000x128, .f32⟩ : BufTy).Contents (Elt Ideal)) (x3 : (⟨S2x500000, .i32⟩ : BufTy).Contents (Elt Ideal)) (e : Fin 500000) (k : Fin 128) : EReal :=
  val_main_v45 (F := Ideal) x0 x3 (ix2 e k)
/-- The position of edge `e`'s source node. -/
def srcPos (x2 : (⟨S50000x3, .f32⟩ : BufTy).Contents (Elt Ideal)) (x3 : (⟨S2x500000, .i32⟩ : BufTy).Contents (Elt Ideal)) (e : Fin 500000) (c : Fin 3) : EReal :=
  val_main_v17 (F := Ideal) x2 x3 (ix2 e c)
/-- The position of edge `e`'s destination node. -/
def dstPos (x2 : (⟨S50000x3, .f32⟩ : BufTy).Contents (Elt Ideal)) (x3 : (⟨S2x500000, .i32⟩ : BufTy).Contents (Elt Ideal)) (e : Fin 500000) (c : Fin 3) : EReal :=
  val_main_v10 (F := Ideal) x2 x3 (ix2 e c)

/-- The scalar messages of all edges, one row per edge. -/
def dsArr (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) : (⟨S500000x128, .f32⟩ : BufTy).Contents (Elt Ideal) := fun i =>
  EdgeSpec.dsE (wts x4 x5 x6 x7 x8 x9 x10 x11 x12 x13) (srcFeat x0 x3 (i 0)) (dstFeat x0 x3 (i 0)) (srcPos x2 x3 (i 0)) (dstPos x2 x3 (i 0)) (i 1)

/-- The vector messages of all edges, three rows per edge. -/
def dvArr (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) : (⟨S500000x3x128, .f32⟩ : BufTy).Contents (Elt Ideal) := fun i =>
  EdgeSpec.dvE (wts x4 x5 x6 x7 x8 x9 x10 x11 x12 x13) (srcFeat x0 x3 (i 0)) (dstFeat x0 x3 (i 0)) (srcPos x2 x3 (i 0)) (dstPos x2 x3 (i 0)) (i 1) (i 2)

/-- The updated scalar features: each node's own plus the scalar messages of the edges ending at it. -/
def G0 (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) : (⟨S50000x128, .f32⟩ : BufTy).Contents (Elt Ideal) :=
  (addf (F := Ideal) (s := S50000x128) (φ := .f32) x0 (Host.scatterAdd (F := Ideal) scatter_S50000x128_S500000x1_S500000x128_1_0_0_1 (val_main_v80 (F := Ideal)) (val_main_v81 (F := Ideal) x3)
    (dsArr x0 x2 x3 x4 x5 x6 x7 x8 x9 x10 x11 x12 x13)) : FVec Ideal S50000x128 .f32)

/-- The updated vector features: each node's own plus the vector messages of the edges ending at it. -/
def G1 (x1 : (⟨S50000x3x128, .f32⟩ : BufTy).Contents (Elt Ideal)) (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) : (⟨S50000x3x128, .f32⟩ : BufTy).Contents (Elt Ideal) :=
  (addf (F := Ideal) (s := S50000x3x128) (φ := .f32) x1 (Host.scatterAdd (F := Ideal) scatter_S50000x3x128_S500000x1_S500000x3x128_12_0_0_1 (val_main_v83 (F := Ideal)) (val_main_v84 (F := Ideal) x3)
    (dvArr x0 x2 x3 x4 x5 x6 x7 x8 x9 x10 x11 x12 x13)) : FVec Ideal S50000x3x128 .f32)

end Cert.EdgeArrays

end
-- ==== Proof.KernelWindows.lean ====
/-
  What the region's windows hold when the region is entered.

  The host operations in front of the region gather, per edge, the features and positions of the edge's two nodes, make
  the all-ones column, cut the first layer's weight matrix into its three row blocks and change the format of the
  matrices. Read at the ideal values a change of format is the identity, so every window's array is an argument array, a
  row block of one, a constant column, or one of the four gathered arrays, which are the same four arrays the reference
  computes from the same arguments.
-/
import proofs.«124468_j36601711296775_2_alg».proof.Proof.KernelIdealFrameP
import proofs.«124468_j36601711296775_2_alg».proof.Proof.EdgeArrays
import Idealize.ShloMosaic.Lib.ValueLayout

noncomputable section

namespace Cert.KernelWindows

open Cert.KernelIdeal Cert.KernelIdeal.Gen Idealize.ShloMosaic Idealize.ShloMosaic.TcCoe Idealize.SL.Sem
open Idealize.ShloMosaic.ValueIdx Idealize.ShloMosaic.StableHlo

/-! ## Which array each window moves -/

theorem arr0 : Pipeline.arrRef spec0 0 = main_v12 := rfl
theorem arr1 : Pipeline.arrRef spec0 1 = main_v19 := rfl
theorem arr2 : Pipeline.arrRef spec0 2 = main_v26 := rfl
theorem arr3 : Pipeline.arrRef spec0 3 = main_v33 := rfl
theorem arr4 : Pipeline.arrRef spec0 4 = main_v4 := rfl
theorem arr5 : Pipeline.arrRef spec0 5 = main_v35 := rfl
theorem arr6 : Pipeline.arrRef spec0 6 = main_v37 := rfl
theorem arr7 : Pipeline.arrRef spec0 7 = main_v38 := rfl
theorem arr8 : Pipeline.arrRef spec0 8 = main_arg5 := rfl
theorem arr9 : Pipeline.arrRef spec0 9 = main_v39 := rfl
theorem arr10 : Pipeline.arrRef spec0 10 = main_arg7 := rfl
theorem arr11 : Pipeline.arrRef spec0 11 = main_v40 := rfl
theorem arr12 : Pipeline.arrRef spec0 12 = main_arg9 := rfl
theorem arr13 : Pipeline.arrRef spec0 13 = main_v41 := rfl
theorem arr14 : Pipeline.arrRef spec0 14 = main_arg11 := rfl
theorem arr15 : Pipeline.arrRef spec0 15 = main_arg12 := rfl
theorem arr16 : Pipeline.arrRef spec0 16 = main_arg13 := rfl
theorem arr17 : Pipeline.arrRef spec0 17 = main_v42 := rfl

variable (m : (ℓ : Loc nD τ sig) → Buf (Elt Ideal) ℓ) (c : Dev nD)

/-! ## The four gathered arrays -/

set_option maxHeartbeats 4000000 in
/-- Window 0: the features of every edge's source node, the reference's own gathered array. -/
theorem win0 : (GenP.V m c main_v12 : S500000x128.Idx → EReal)
    = Cert.ReferenceIdeal.Read.val_main_v38 (F := Ideal) (m ((c : Thread nD τ).loc main_arg0)) (m ((c : Thread nD τ).loc main_arg3)) := by
  show StableHlo.after GenP.hostOps0 (fun b => m (c, b)) (Proc.devRef .tc main_v12) = _
  after_results_simp
  rfl

set_option maxHeartbeats 4000000 in
/-- Window 1: the features of every edge's destination node. -/
theorem win1 : (GenP.V m c main_v19 : S500000x128.Idx → EReal)
    = Cert.ReferenceIdeal.Read.val_main_v45 (F := Ideal) (m ((c : Thread nD τ).loc main_arg0)) (m ((c : Thread nD τ).loc main_arg3)) := by
  show StableHlo.after GenP.hostOps0 (fun b => m (c, b)) (Proc.devRef .tc main_v19) = _
  after_results_simp
  rfl

set_option maxHeartbeats 4000000 in
/-- Window 2: the position of every edge's source node. -/
theorem win2 : (GenP.V m c main_v26 : S500000x3.Idx → EReal)
    = Cert.ReferenceIdeal.Read.val_main_v17 (F := Ideal) (m ((c : Thread nD τ).loc main_arg2)) (m ((c : Thread nD τ).loc main_arg3)) := by
  show StableHlo.after GenP.hostOps0 (fun b => m (c, b)) (Proc.devRef .tc main_v26) = _
  after_results_simp
  rfl

set_option maxHeartbeats 4000000 in
/-- Window 3: the position of every edge's destination node. -/
theorem win3 : (GenP.V m c main_v33 : S500000x3.Idx → EReal)
    = Cert.ReferenceIdeal.Read.val_main_v10 (F := Ideal) (m ((c : Thread nD τ).loc main_arg2)) (m ((c : Thread nD τ).loc main_arg3)) := by
  show StableHlo.after GenP.hostOps0 (fun b => m (c, b)) (Proc.devRef .tc main_v33) = _
  after_results_simp
  rfl

/-! ## The constant column -/

/-- Window 4: a column of ones. -/
theorem win4 (i : S500000x1.Idx) : (GenP.V m c main_v4 : S500000x1.Idx → EReal) i = (1 : EReal) := by
  have e : (GenP.V m c main_v4 : S500000x1.Idx → EReal)
      = broadcastInDim S500000x1 ![] bcast_S_S500000x1 (constant (F := Ideal) S_ .f32 0x3F800000#32) := by
    show StableHlo.after GenP.hostOps0 (fun b => m (c, b)) (Proc.devRef .tc main_v4) = _
    after_results
  rw [e, broadcastInDim_apply _ bcast_S_S500000x1 _ i ix0 (fun a => a.elim0)]
  exact Ideal.ofBits_one_f32

/-! ## The three row blocks of the first layer's matrix -/

set_option maxHeartbeats 4000000 in
/-- Window 5: rows 0 … 127 of the first layer's matrix (the rows that meet the source features). -/
theorem win5 (k : Fin 128) (n : Fin 256) :
    (GenP.V m c main_v35 : S128x256.Idx → EReal) (ix2 k n)
      = ((m ((c : Thread nD τ).loc main_arg4)) : S276x256.Idx → EReal) (ix2 (⟨k.val, by have := k.isLt; omega⟩ : Fin 276) n) := by
  have e : (GenP.V m c main_v35 : S128x256.Idx → EReal)
      = extractStridedSlice S128x256 ![0, 0] ((m ((c : Thread nD τ).loc main_arg4)) : S276x256.Idx → EReal) slices_S276x256_S128x256_0_0 := by
    show StableHlo.after GenP.hostOps0 (fun b => m (c, b)) (Proc.devRef .tc main_v35) = _
    after_results_simp
    rfl
  rw [e]
  exact slice2_axis0_apply 0 _ slices_S276x256_S128x256_0_0 k n _ (Nat.zero_add _).symm

set_option maxHeartbeats 4000000 in
/-- Window 6: rows 128 … 255 of the first layer's matrix (the rows that meet the destination features). -/
theorem win6 (k : Fin 128) (n : Fin 256) :
    (GenP.V m c main_v37 : S128x256.Idx → EReal) (ix2 k n)
      = ((m ((c : Thread nD τ).loc main_arg4)) : S276x256.Idx → EReal) (ix2 (⟨128 + k.val, by have := k.isLt; omega⟩ : Fin 276) n) := by
  have e : (GenP.V m c main_v37 : S128x256.Idx → EReal)
      = extractStridedSlice S128x256 ![128, 0] ((m ((c : Thread nD τ).loc main_arg4)) : S276x256.Idx → EReal) slices_S276x256_S128x256_128_0 := by
    show StableHlo.after GenP.hostOps0 (fun b => m (c, b)) (Proc.devRef .tc main_v37) = _
    after_results_simp
    rfl
  rw [e]
  exact slice2_axis0_apply 128 _ slices_S276x256_S128x256_128_0 k n _ rfl

set_option maxHeartbeats 4000000 in
/-- Window 7: rows 256 … 275 of the first layer's matrix (the rows that meet the radial basis values). -/
theorem win7 (k : Fin 20) (n : Fin 256) :
    (GenP.V m c main_v38 : S20x256.Idx → EReal) (ix2 k n)
      = ((m ((c : Thread nD τ).loc main_arg4)) : S276x256.Idx → EReal) (ix2 (⟨256 + k.val, by have := k.isLt; omega⟩ : Fin 276) n) := by
  have e : (GenP.V m c main_v38 : S20x256.Idx → EReal)
      = extractStridedSlice S20x256 ![256, 0] ((m ((c : Thread nD τ).loc main_arg4)) : S276x256.Idx → EReal) slices_S276x256_S20x256_256_0 := by
    show StableHlo.after GenP.hostOps0 (fun b => m (c, b)) (Proc.devRef .tc main_v38) = _
    after_results_simp
  rw [e]
  exact slice2_axis0_apply 256 _ slices_S276x256_S20x256_256_0 k n _ rfl

/-! ## The other matrices -/

set_option maxHeartbeats 4000000 in
/-- Window 9: the second layer's matrix. -/
theorem win9 : (GenP.V m c main_v39 : S256x256.Idx → EReal) = (m ((c : Thread nD τ).loc main_arg6)) := by
  show StableHlo.after GenP.hostOps0 (fun b => m (c, b)) (Proc.devRef .tc main_v39) = _
  after_results_simp
  rfl

set_option maxHeartbeats 4000000 in
/-- Window 11: the scalar head's matrix. -/
theorem win11 : (GenP.V m c main_v40 : S256x128.Idx → EReal) = (m ((c : Thread nD τ).loc main_arg8)) := by
  show StableHlo.after GenP.hostOps0 (fun b => m (c, b)) (Proc.devRef .tc main_v40) = _
  after_results_simp
  rfl

set_option maxHeartbeats 4000000 in
/-- Window 13: the vector head's matrix. -/
theorem win13 : (GenP.V m c main_v41 : S256x128.Idx → EReal) = (m ((c : Thread nD τ).loc main_arg10)) := by
  show StableHlo.after GenP.hostOps0 (fun b => m (c, b)) (Proc.devRef .tc main_v41) = _
  after_results_simp
  rfl

end Cert.KernelWindows

end
-- ==== Proof.KernelSlab.lean ====
/-
  The kernel region's one output as a whole array: a slab of 512 numbers per edge.

  Row `e` of the slab is the scalar message of edge `e` (128 numbers) followed by the three coordinates of its vector
  message (3 × 128 numbers): position `q < 128` holds `dsArr (e, q)`, position `q = 128 + 128·c + j` holds `dvArr (e, c, j)`.
-/
import proofs.«124468_j36601711296775_2_alg».proof.Proof.EdgeArrays

noncomputable section

namespace Cert.EdgeArrays

open Cert.ReferenceIdeal Cert.ReferenceIdeal.Read Idealize.ShloMosaic Idealize.ShloMosaic.ValueIdx

/-- The slab: per edge, the scalar message and then the vector message, side by side. -/
def slab (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) : (⟨2, ![500000, 512]⟩ : Shape).Idx → EReal := fun i =>
  if h : (i 1).val < 128 then
    dsArr x0 x2 x3 x4 x5 x6 x7 x8 x9 x10 x11 x12 x13 (ix2 (i 0) (⟨(i 1).val, h⟩ : Fin 128))
  else
    dvArr x0 x2 x3 x4 x5 x6 x7 x8 x9 x10 x11 x12 x13
      (ix3 (i 0) (⟨((i 1).val - 128) / 128, by have h512 : (i 1).val < 512 := (i 1).isLt; omega⟩ : Fin 3) (⟨((i 1).val - 128) % 128, Nat.mod_lt _ (by decide)⟩ : Fin 128))

/-- The slab at a position of the scalar part. -/
theorem slab_ds (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) (e : Fin 500000) (j : Fin 128) (q : Fin 512) (hq : q.val = j.val) :
    slab x0 x2 x3 x4 x5 x6 x7 x8 x9 x10 x11 x12 x13 (ix2 e q) = dsArr x0 x2 x3 x4 x5 x6 x7 x8 x9 x10 x11 x12 x13 (ix2 e j) := by
  have h : ((ix2 e q : (⟨2, ![500000, 512]⟩ : Shape).Idx) 1).val < 128 := by show q.val < 128; omega
  unfold slab
  rw [dif_pos h]
  exact congrArg _ (congrArg (ix2 e) (Fin.ext hq))

/-- The slab at a position of the vector part. -/
theorem slab_dv (x0 : (⟨S50000x128, .f32⟩ : BufTy).Contents (Elt Ideal)) (x2 : (⟨S50000x3, .f32⟩ : BufTy).Contents (Elt Ideal)) (x3 : (⟨S2x500000, .i32⟩ : BufTy).Contents (Elt Ideal)) (x4 : (⟨S276x256, .f32⟩ : BufTy).Contents (Elt Ideal)) (x5 : (⟨S256, .f32⟩ : BufTy).Contents (Elt Ideal)) (x6 : (⟨S256x256, .f32⟩ : BufTy).Contents (Elt Ideal)) (x7 : (⟨S256, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 x13 : (⟨S20, .f32⟩ : BufTy).Contents (Elt Ideal)) (e : Fin 500000) (c : Fin 3) (j : Fin 128) (q : Fin 512) (hq : q.val = 128 + 128 * c.val + j.val) :
    slab x0 x2 x3 x4 x5 x6 x7 x8 x9 x10 x11 x12 x13 (ix2 e q) = dvArr x0 x2 x3 x4 x5 x6 x7 x8 x9 x10 x11 x12 x13 (ix3 e c j) := by
  have h : ¬ ((ix2 e q : (⟨2, ![500000, 512]⟩ : Shape).Idx) 1).val < 128 := by show ¬ q.val < 128; omega
  unfold slab
  rw [dif_neg h]
  have hc : (q.val - 128) / 128 = c.val := by have := j.isLt; omega
  have hj : (q.val - 128) % 128 = j.val := by have := j.isLt; omega
  exact congrArg _ (congrArg₂ (ix3 e) (Fin.ext hc) (Fin.ext hj))

end Cert.EdgeArrays

end
-- ==== Proof.KernelFinal.lean ====
/-
  From blocks to the array: what the kernel region leaves in its output.

  At grid point `t` the body stores, in row `p` of the output block, the scalar message and the vector message of edge
  `4000·t + p` (the validity number it multiplies by is one). So block `t` of the output is rows 4000·t .. 4000·t + 3999
  of the slab of all edges' messages; the 125 blocks cover the 500000 rows, and the output array ends as the slab.
-/
import proofs.«124468_j36601711296775_2_alg».proof.Proof.KernelBlocks
import proofs.«124468_j36601711296775_2_alg».proof.Proof.KernelWindows
import proofs.«124468_j36601711296775_2_alg».proof.Proof.KernelSlab

set_option maxRecDepth 16384

noncomputable section

namespace Cert.KernelFinal

open Cert.KernelIdeal Cert.KernelIdeal.Gen Cert.KernelIdeal.GenP Cert.KernelRow Cert.KernelBlocks Cert.KernelWindows
open Cert.EdgeSpec Cert.EdgeArrays
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

/-- The slab of all edges' messages, of the argument arrays of core `c`. -/
def slabK (c : Dev nD) : S500000x512.Idx → EReal := slab (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The parameters read off the argument arrays of core `c`. -/
def wtsK (c : Dev nD) : Wts := wts (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Two block-form parameter sets with equal fields are equal. -/
theorem bwts_ext {a b : BWts} (h1 : a.W1s = b.W1s) (h2 : a.W1d = b.W1d) (h3 : a.W1r = b.W1r) (h4 : a.b1 = b.b1)
    (h5 : a.W2 = b.W2) (h6 : a.b2 = b.b2) (h7 : a.Ws = b.Ws) (h8 : a.bs = b.bs) (h9 : a.Wv = b.Wv) (h10 : a.bv = b.bv)
    (h11 : a.cen = b.cen) (h12 : a.wid = b.wid) : a = b := by
  cases a; cases b
  dsimp only at *
  subst_vars
  rfl

set_option maxHeartbeats 4000000 in
/-- The parameter blocks the body loads at any grid point are the parameters of the argument arrays, the first weight
    matrix as its three row blocks. -/
theorem bw_eq (c : Dev nD) (t : Fin cfg0.N) : bw (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) = (wtsK m c).blocks := by
  refine bwts_ext ?_ ?_ ?_ ?_ ?_ ?_ ?_ ?_ ?_ ?_ ?_ ?_
  · funext k n; show GenP.iblk m c 5 t (ix2 k n) = _; rw [iblk5_apply]; exact win5 m c k n
  · funext k n; show GenP.iblk m c 6 t (ix2 k n) = _; rw [iblk6_apply]; exact win6 m c k n
  · funext k n; show GenP.iblk m c 7 t (ix2 k n) = _; rw [iblk7_apply]; exact win7 m c k n
  · funext n; show GenP.iblk m c 8 t (ix1 n) = _; rw [iblk8_apply]; exact congrFun (GenP.V_main_arg5 m c) (ix1 n)
  · funext k n; show GenP.iblk m c 9 t (ix2 k n) = _; rw [iblk9_apply]; exact congrFun (win9 m c) (ix2 k n)
  · funext n; show GenP.iblk m c 10 t (ix1 n) = _; rw [iblk10_apply]; exact congrFun (GenP.V_main_arg7 m c) (ix1 n)
  · funext k n; show GenP.iblk m c 11 t (ix2 k n) = _; rw [iblk11_apply]; exact congrFun (win11 m c) (ix2 k n)
  · funext n; show GenP.iblk m c 12 t (ix1 n) = _; rw [iblk12_apply]; exact congrFun (GenP.V_main_arg9 m c) (ix1 n)
  · funext k n; show GenP.iblk m c 13 t (ix2 k n) = _; rw [iblk13_apply]; exact congrFun (win13 m c) (ix2 k n)
  · funext n; show GenP.iblk m c 14 t (ix1 n) = _; rw [iblk14_apply]; exact congrFun (GenP.V_main_arg11 m c) (ix1 n)
  · funext k; show GenP.iblk m c 15 t (ix1 k) = _; rw [iblk15_apply]; exact congrFun (GenP.V_main_arg12 m c) (ix1 k)
  · funext k; show GenP.iblk m c 16 t (ix1 k) = _; rw [iblk16_apply]; exact congrFun (GenP.V_main_arg13 m c) (ix1 k)

/-- Row `p` of the source-feature block at point `t` is the source features of edge `4000·t + p`. -/
theorem feat0_eq (c : Dev nD) (t : Fin cfg0.N) (p : Fin 4000) :
    featRow (GenP.iblk m c 0 t) p = srcFeat (m ((c : Thread nD τ).loc main_arg0)) (m ((c : Thread nD τ).loc main_arg3)) (edgeOf t p) := by
  funext k
  show GenP.iblk m c 0 t (ix2 p k) = _
  rw [iblk0_apply]
  exact congrFun (win0 m c) (ix2 (edgeOf t p) k)

theorem feat1_eq (c : Dev nD) (t : Fin cfg0.N) (p : Fin 4000) :
    featRow (GenP.iblk m c 1 t) p = dstFeat (m ((c : Thread nD τ).loc main_arg0)) (m ((c : Thread nD τ).loc main_arg3)) (edgeOf t p) := by
  funext k
  show GenP.iblk m c 1 t (ix2 p k) = _
  rw [iblk1_apply]
  exact congrFun (win1 m c) (ix2 (edgeOf t p) k)

theorem pos2_eq (c : Dev nD) (t : Fin cfg0.N) (p : Fin 4000) :
    posRow (GenP.iblk m c 2 t) p = srcPos (m ((c : Thread nD τ).loc main_arg2)) (m ((c : Thread nD τ).loc main_arg3)) (edgeOf t p) := by
  funext k
  show GenP.iblk m c 2 t (ix2 p k) = _
  rw [iblk2_apply]
  exact congrFun (win2 m c) (ix2 (edgeOf t p) k)

theorem pos3_eq (c : Dev nD) (t : Fin cfg0.N) (p : Fin 4000) :
    posRow (GenP.iblk m c 3 t) p = dstPos (m ((c : Thread nD τ).loc main_arg2)) (m ((c : Thread nD τ).loc main_arg3)) (edgeOf t p) := by
  funext k
  show GenP.iblk m c 3 t (ix2 p k) = _
  rw [iblk3_apply]
  exact congrFun (win3 m c) (ix2 (edgeOf t p) k)

/-- The validity number of every row is one. -/
theorem valid_eq (c : Dev nD) (t : Fin cfg0.N) (p : Fin 4000) : GenP.iblk m c 4 t (ix2 p (0 : Fin 1)) = (1 : EReal) := by
  rw [iblk4_apply]
  exact win4 m c _

/-- WHAT POINT `t` WRITES BACK is block `t` of the slab. -/
theorem flushed_eq (c : Dev nD) (t : Fin cfg0.N) :
    (GenP.dats m 0 c).flushed 17 t = ((cfg0.win 17).blk t).view.read (Elt Ideal) (slabK m c) := by
  show (cfg0.win 17).cut (grid0.coords t) ((GenP.dats m 0 c).after 17 t) = _
  rw [GenP.after0_17, out_eq]
  funext y
  obtain ⟨p, q, rfl⟩ : ∃ (p : Fin 4000) (q : Fin 512), y = ix2 p q := ⟨y 0, y 1, eq_ix2 y⟩
  show payload (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) (ix2 p q) = slabK m c (((cfg0.win 17).blk t).view.emb (ix2 p q))
  rw [oblk_emb]
  by_cases hq : q.val < 128
  · refine (payload_ds (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) p ⟨q.val, hq⟩ q rfl).trans ?_
    refine Eq.trans ?_ (slab_ds (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (edgeOf t p) ⟨q.val, hq⟩ q rfl).symm
    rw [valid_eq, mul_one, bw_eq, feat0_eq, feat1_eq, pos2_eq, pos3_eq, bdsE_blocks]
    rfl
  · have hq512 : q.val < 512 := q.isLt
    have hc : (q.val - 128) / 128 < 3 := by omega
    have hj : (q.val - 128) % 128 < 128 := Nat.mod_lt _ (by decide)
    have hqe : q.val = 128 + 128 * (⟨(q.val - 128) / 128, hc⟩ : Fin 3).val + (⟨(q.val - 128) % 128, hj⟩ : Fin 128).val := by
      show q.val = 128 + 128 * ((q.val - 128) / 128) + (q.val - 128) % 128
      omega
    refine (payload_dv (GenP.iblk m c 0 t) (GenP.iblk m c 1 t) (GenP.iblk m c 2 t) (GenP.iblk m c 3 t) (GenP.iblk m c 4 t) (GenP.iblk m c 5 t) (GenP.iblk m c 6 t) (GenP.iblk m c 7 t) (GenP.iblk m c 8 t) (GenP.iblk m c 9 t) (GenP.iblk m c 10 t) (GenP.iblk m c 11 t) (GenP.iblk m c 12 t) (GenP.iblk m c 13 t) (GenP.iblk m c 14 t) (GenP.iblk m c 15 t) (GenP.iblk m c 16 t) p ⟨(q.val - 128) / 128, hc⟩ ⟨(q.val - 128) % 128, hj⟩ q hqe).trans ?_
    refine Eq.trans ?_ (slab_dv (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (edgeOf t p) ⟨(q.val - 128) / 128, hc⟩ ⟨(q.val - 128) % 128, hj⟩ q hqe).symm
    rw [valid_eq, mul_one, bw_eq, feat0_eq, feat1_eq, pos2_eq, pos3_eq, bdvE_blocks]
    rfl

/-- An index of the output array is in point `t`'s block iff each coordinate is in the block's range on its axis. -/
theorem mem_blk (t : Fin cfg0.N) (i : S500000x512.Idx) :
    i ∈ ((cfg0.win 17).blk t).view.set ↔ ∀ a : Fin 2, win0_17.index t a * S4000x512.size a ≤ (i a).val ∧ (i a).val < win0_17.index t a * S4000x512.size a + S4000x512.size a := by
  show i ∈ ((View.whole main_v42).slice (win0_17.rect t)).set ↔ _
  rw [View.set_slice_whole, Rect.mem_set_unit]
  exact Iff.rfl

/-- Every row of the output array is in some point's block: row `r` in that of point `r / 4000`. -/
theorem cover (i : S500000x512.Idx) :
    ∃ t : Fin cfg0.N, (cfg0.win 17).flush t = true ∧ i ∈ ((cfg0.win 17).blk t).view.set := by
  have hi0 : (i 0).val < 500000 := (i 0).isLt
  have hi1 : (i 1).val < 512 := (i 1).isLt
  have hN : grid0.N = 125 := GenP.N_0
  have hlt : (i 0).val / 4000 < cfg0.N := by show _ < grid0.N; omega
  have ht : ((⟨(i 0).val / 4000, hlt⟩ : Fin cfg0.N)).val = (i 0).val / 4000 := rfl
  generalize (⟨(i 0).val / 4000, hlt⟩ : Fin cfg0.N) = t at ht
  obtain ⟨f0, f1, f2, f3, f4, f5, f6, f7, f8, f9, f10, f11, f12, f13, f14, f15, f16, f17, f18, f19, f20, f21, f22, f23, f24, f25, f26, f27, f28, f29⟩ := idx_facts t
  refine ⟨t, flush0_17 t, ?_⟩
  rw [mem_blk]
  intro a
  match a with
  | ⟨0, _⟩ =>
    show win0_17.index t (0 : Fin 2) * 4000 ≤ (i 0).val ∧ (i 0).val < win0_17.index t (0 : Fin 2) * 4000 + 4000
    omega
  | ⟨1, _⟩ =>
    show win0_17.index t (1 : Fin 2) * 512 ≤ (i 1).val ∧ (i 1).val < win0_17.index t (1 : Fin 2) * 512 + 512
    omega

/-- THE OUTPUT ARRAY after the region is the slab. -/
theorem final (c : Dev nD) : (GenP.dats m 0 c).arrAt 17 cfg0.N = slabK m c :=
  (GenP.dats m 0 c).arrAt_eq_of_cover 17 (slabK m c) (fun t _ => flushed_eq m c t) cover

end Cert.KernelFinal

end
-- ==== Proof.KernelTail.lean ====
/-
  The host operations after the region, applied to a region output that is the slab.

  The region leaves one array of 512 numbers per edge. What follows cuts it into its first 128 columns and its last 384,
  regroups the latter as three rows of 128, scatter-adds each part by the destination index into zeros, and adds the
  results to the two feature arrays. When the region's output is the slab of scalar and vector messages, the two parts are
  the arrays of scalar and of vector messages, so the two final arrays are the updated scalar and vector features.
-/
import proofs.«124468_j36601711296775_2_alg».proof.Proof.KernelIdealFrameP
import proofs.«124468_j36601711296775_2_alg».proof.Proof.KernelSlab
import proofs.«124468_j36601711296775_2_alg».proof.Proof.LibColumnFlatten
import Idealize.ShloMosaic.Lib.ValueLayout

noncomputable section

namespace Cert.KernelTail

open Cert.KernelIdeal Cert.KernelIdeal.Gen Idealize.ShloMosaic Idealize.ShloMosaic.TcCoe Idealize.SL.Sem
open Idealize.ShloMosaic.ValueIdx Idealize.ShloMosaic.StableHlo Cert.EdgeArrays

variable (x0 : (⟨S50000x128, .f32⟩ : BufTy).Contents (Elt Ideal))
  (x2 : (⟨S50000x3, .f32⟩ : BufTy).Contents (Elt Ideal))
  (x3 : (⟨S2x500000, .i32⟩ : BufTy).Contents (Elt Ideal))
  (x4 : (⟨S276x256, .f32⟩ : BufTy).Contents (Elt Ideal))
  (x5 : (⟨S256, .f32⟩ : BufTy).Contents (Elt Ideal))
  (x6 : (⟨S256x256, .f32⟩ : BufTy).Contents (Elt Ideal))
  (x7 : (⟨S256, .f32⟩ : BufTy).Contents (Elt Ideal))
  (x8 : (⟨S256x128, .f32⟩ : BufTy).Contents (Elt Ideal))
  (x9 : (⟨S128, .f32⟩ : BufTy).Contents (Elt Ideal))
  (x10 : (⟨S256x128, .f32⟩ : BufTy).Contents (Elt Ideal))
  (x11 : (⟨S128, .f32⟩ : BufTy).Contents (Elt Ideal))
  (x12 x13 : (⟨S20, .f32⟩ : BufTy).Contents (Elt Ideal))

/-! ## The two parts of the slab -/

/-- Columns 0 … 127 of the slab are the scalar messages. -/
theorem tail_ds :
    extractStridedSlice S500000x128 ![0, 0] (slab x0 x2 x3 x4 x5 x6 x7 x8 x9 x10 x11 x12 x13 : S500000x512.Idx → EReal) slices_S500000x512_S500000x128_0_0
      = (dsArr x0 x2 x3 x4 x5 x6 x7 x8 x9 x10 x11 x12 x13 : S500000x128.Idx → EReal) := by
  funext i
  obtain ⟨e, j, rfl⟩ : ∃ (e : Fin 500000) (j : Fin 128), i = ix2 e j := ⟨i 0, i 1, eq_ix2 i⟩
  have hj : j.val < 512 := by have := j.isLt; omega
  exact (slice2_axis1_apply 0 _ slices_S500000x512_S500000x128_0_0 e j ⟨j.val, hj⟩ (Nat.zero_add _).symm).trans
    (slab_ds x0 x2 x3 x4 x5 x6 x7 x8 x9 x10 x11 x12 x13 e j ⟨j.val, hj⟩ rfl)

/-- Columns 128 … 511 of the slab, regrouped as three rows of 128, are the vector messages: column `128 + 128 p + j`
    is entry `(p, j)`. -/
theorem tail_dv :
    shapeCast S500000x3x128
        (extractStridedSlice S500000x384 ![0, 128] (slab x0 x2 x3 x4 x5 x6 x7 x8 x9 x10 x11 x12 x13 : S500000x512.Idx → EReal) slices_S500000x512_S500000x384_0_128)
        shapeCasts_S500000x384_S500000x3x128
      = (dvArr x0 x2 x3 x4 x5 x6 x7 x8 x9 x10 x11 x12 x13 : S500000x3x128.Idx → EReal) := by
  funext i
  obtain ⟨e, p, j, rfl⟩ : ∃ (e : Fin 500000) (p : Fin 3) (j : Fin 128), i = ix3 e p j := ⟨i 0, i 1, i 2, eq_ix3 i⟩
  have hq : p.val * 128 + j.val < 384 := by have := p.isLt; have := j.isLt; omega
  have hr : 128 + (p.val * 128 + j.val) < 512 := by omega
  refine (Cert.Lib.ColumnFlatten.shapeCast_an_abc_apply _ shapeCasts_S500000x384_S500000x3x128 e p j ⟨p.val * 128 + j.val, hq⟩ rfl).trans ?_
  refine (slice2_axis1_apply 128 _ slices_S500000x512_S500000x384_0_128 e ⟨p.val * 128 + j.val, hq⟩ ⟨128 + (p.val * 128 + j.val), hr⟩ rfl).trans ?_
  exact slab_dv x0 x2 x3 x4 x5 x6 x7 x8 x9 x10 x11 x12 x13 e p j ⟨128 + (p.val * 128 + j.val), hr⟩ (by show 128 + (p.val * 128 + j.val) = 128 + 128 * p.val + j.val; omega)

variable (m : (ℓ : Loc nD τ sig) → Buf (Elt Ideal) ℓ) (c : Dev nD)

/-! ## The host operations after the region, on a region output that is the slab -/

/-- The region writes no argument array and no operation in front of it does: the first argument array is as given. -/
theorem after_arg0 : Pipeline.withArrays (cfgs 0).spec c (GenP.V0 m c) (fun w => (GenP.dats m 0 c).arrAt w (cfgs 0).N) (Proc.devRef .tc main_arg0) = (m ((c : Thread nD τ).loc main_arg0)) :=
  (Pipeline.withArrays_of_ne _ c (GenP.V0 m c) _ main_arg0 (by exact (by decide : ∀ w, Pipeline.arrRef spec0 w ≠ main_arg0))).trans (GenP.V_main_arg0 m c)

/-- Likewise the second argument array. -/
theorem after_arg1 : Pipeline.withArrays (cfgs 0).spec c (GenP.V0 m c) (fun w => (GenP.dats m 0 c).arrAt w (cfgs 0).N) (Proc.devRef .tc main_arg1) = (m ((c : Thread nD τ).loc main_arg1)) :=
  (Pipeline.withArrays_of_ne _ c (GenP.V0 m c) _ main_arg1 (by exact (by decide : ∀ w, Pipeline.arrRef spec0 w ≠ main_arg1))).trans (GenP.V_main_arg1 m c)

set_option maxHeartbeats 4000000 in
/-- The destination index vector, computed in front of the region and untouched by it, is the reference's: row 1 of the
    edge index array, as a vector. -/
theorem after_v3 : Pipeline.withArrays (cfgs 0).spec c (GenP.V0 m c) (fun w => (GenP.dats m 0 c).arrAt w (cfgs 0).N) (Proc.devRef .tc main_v3)
    = Cert.ReferenceIdeal.Read.val_main_v3 (F := Ideal) (m ((c : Thread nD τ).loc main_arg3)) :=
  (Pipeline.withArrays_of_ne _ c (GenP.V0 m c) _ main_v3 (by exact (by decide : ∀ w, Pipeline.arrRef spec0 w ≠ main_v3))).trans (by
    show StableHlo.after GenP.hostOps0 (fun b => m (c, b)) (Proc.devRef .tc main_v3) = _
    after_results_simp
    rfl)

/-- The region's output array after the region is what the proof data says it is at the last point. -/
theorem after_v42 (hfinal : ((GenP.dats m 0 c).arrAt 17 cfg0.N : S500000x512.Idx → EReal) = slab (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    Pipeline.withArrays (cfgs 0).spec c (GenP.V0 m c) (fun w => (GenP.dats m 0 c).arrAt w (cfgs 0).N) (Proc.devRef .tc main_v42) = slab (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (Pipeline.withArrays_arr spec0 GenP.launch0.win.arr_inj c _ _ 17).trans hfinal

set_option maxHeartbeats 4000000 in
/-- The first result: the scalar part of the slab scatter-added by destination into zeros, added to the features. -/
theorem tail_G0 (hfinal : ((GenP.dats m 0 c).arrAt 17 cfg0.N : S500000x512.Idx → EReal) = slab (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    (Pipeline.afterTail₀ cfgs (GenP.dats m) 0 (GenP.V0 m) [GenP.hostOps1] c main_v52 : S50000x128.Idx → EReal) = G0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  show StableHlo.after GenP.hostOps1 _ (Proc.devRef .tc main_v52) = _
  after_results_simp
  rw [after_arg0 m c, after_v3 m c, after_v42 m c hfinal, tail_ds]
  rfl

set_option maxHeartbeats 4000000 in
/-- The second result: the vector part of the slab, regrouped, scatter-added by destination into zeros, added to the
    vector features. -/
theorem tail_G1 (hfinal : ((GenP.dats m 0 c).arrAt 17 cfg0.N : S500000x512.Idx → EReal) = slab (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) :
    (Pipeline.afterTail₀ cfgs (GenP.dats m) 0 (GenP.V0 m) [GenP.hostOps1] c main_v53 : S50000x3x128.Idx → EReal) = G1 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  unfold Pipeline.afterTail₀
  show StableHlo.after GenP.hostOps1 _ (Proc.devRef .tc main_v53) = _
  after_results_simp
  rw [after_arg1 m c, after_v3 m c, after_v42 m c hfinal]
  have key : ∀ u : S500000x3x128.Idx → EReal, u = (dvArr (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) : S500000x3x128.Idx → EReal) →
      addf (m ((c : Thread nD τ).loc main_arg1)) (Host.scatterAdd scatter_S50000x3x128_S500000x1_S500000x3x128_12_0_0_1
        (broadcastInDim S50000x3x128 ![] bcast_S_S50000x3x128 (constant (F := Ideal) S_ .f32 0x00000000#32))
        (broadcastInDim S500000x1 ![0] bcast_S500000_S500000x1_0 (Cert.ReferenceIdeal.Read.val_main_v3 (F := Ideal) (m ((c : Thread nD τ).loc main_arg3))))
        u) = G1 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
    intro u hu
    rw [hu]
    rfl
  exact key _ (tail_dv (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))

end Cert.KernelTail

end
-- ==== Proof.KernelRun.lean ====
/-
  The idealized kernel's run, read: every weakly fair execution ends with the two results at the layer's two functions of
  the argument arrays (the updated scalar and vector features), and with the argument arrays unchanged.

  The region leaves the slab of all edges' messages in its output array; the host operations after it cut the slab into the
  scalar and vector messages, scatter-add them by destination node into zeros, and add the nodes' own features.
-/
import proofs.«124468_j36601711296775_2_alg».proof.Proof.KernelFinal
import proofs.«124468_j36601711296775_2_alg».proof.Proof.KernelTail

set_option maxRecDepth 16384

noncomputable section

namespace Cert.KernelRun

open Cert.KernelIdeal Cert.KernelIdeal.Gen Cert.KernelIdeal.GenP Cert.KernelFinal Cert.KernelTail Cert.EdgeArrays
open Idealize.ShloMosaic Idealize.ShloMosaic.TcCoe Idealize.SL.Sem

variable (m : (ℓ : Loc nD τ sig) → Buf (Elt Ideal) ℓ) (ρ : Dev nD → PrngReg)

set_option maxHeartbeats 4000000 in
/-- The argument arrays after the run are the argument arrays before it: an argument a window stages ends as the region
    found it, any other as the host operations leave it, and no host operation writes an argument. -/
theorem args_kept (r : PUnit × MemSt nD τ sig (Elt Ideal))
    (h : Pipeline.FramePost cfgs (GenP.dats m) 0 (Pipeline.afterTail₀ cfgs (GenP.dats m) 0 (GenP.V0 m) [GenP.hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(((h c).2 main_arg0 (Pipeline.mem_restRefs_of main_arg0 (by decide) (by decide))).trans (W_main_arg0 m (GenP.dats m) c)),
      (((h c).2 main_arg1 (Pipeline.mem_restRefs_of main_arg1 (by decide) (by decide))).trans (W_main_arg1 m (GenP.dats m) c)),
      (((h c).2 main_arg2 (Pipeline.mem_restRefs_of main_arg2 (by decide) (by decide))).trans (W_main_arg2 m (GenP.dats m) c)),
      (((h c).2 main_arg3 (Pipeline.mem_restRefs_of main_arg3 (by decide) (by decide))).trans (W_main_arg3 m (GenP.dats m) c)),
      (((h c).2 main_arg4 (Pipeline.mem_restRefs_of main_arg4 (by decide) (by decide))).trans (W_main_arg4 m (GenP.dats m) c)),
      ((h c).1 8).trans ((((GenP.dats m) 0 c).arrAt_in 8 rfl _).trans ((GenP.A_eq m c 8).trans (V_main_arg5 m c))),
      (((h c).2 main_arg6 (Pipeline.mem_restRefs_of main_arg6 (by decide) (by decide))).trans (W_main_arg6 m (GenP.dats m) c)),
      ((h c).1 10).trans ((((GenP.dats m) 0 c).arrAt_in 10 rfl _).trans ((GenP.A_eq m c 10).trans (V_main_arg7 m c))),
      (((h c).2 main_arg8 (Pipeline.mem_restRefs_of main_arg8 (by decide) (by decide))).trans (W_main_arg8 m (GenP.dats m) c)),
      ((h c).1 12).trans ((((GenP.dats m) 0 c).arrAt_in 12 rfl _).trans ((GenP.A_eq m c 12).trans (V_main_arg9 m c))),
      (((h c).2 main_arg10 (Pipeline.mem_restRefs_of main_arg10 (by decide) (by decide))).trans (W_main_arg10 m (GenP.dats m) c)),
      ((h c).1 14).trans ((((GenP.dats m) 0 c).arrAt_in 14 rfl _).trans ((GenP.A_eq m c 14).trans (V_main_arg11 m c))),
      ((h c).1 15).trans ((((GenP.dats m) 0 c).arrAt_in 15 rfl _).trans ((GenP.A_eq m c 15).trans (V_main_arg12 m c))),
      ((h c).1 16).trans ((((GenP.dats m) 0 c).arrAt_in 16 rfl _).trans ((GenP.A_eq m c 16).trans (V_main_arg13 m c)))⟩

set_option maxHeartbeats 4000000 in
/-- The run of the idealized kernel with both results named. -/
theorem run : θ_run defs (onTc (τ := τ) (main (F := Ideal))) ⟨m, fun _ => 0, ρ⟩ (fun r => ∀ c : Dev nD,
      r.2.mem ((c.tc : Thread nD τ).loc main_v52) = (G0 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_v53) = (G1 (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨((h c).2 main_v52 (Pipeline.mem_restRefs_of main_v52 (by decide) (by decide))).trans (tail_G0 m c (final m c)),
     ((h c).2 main_v53 (Pipeline.mem_restRefs_of main_v53 (by decide) (by decide))).trans (tail_G1 m c (final m c)),
     args_kept m r h c⟩) (GenP.run_main m ρ)

end Cert.KernelRun

end
-- ==== Proof.RefEdge.lean ====
/-
  The reference program, read one edge at a time, is the per-edge mathematics.

  Every value the reference computes between its four gathers and its two scatter-adds is a row-wise function of the
  gathered rows. Stage by stage, at edge `e`: the displacement, its length, the twenty radial basis values, the row
  `source features ++ destination features ++ radial values`, two affine layers each followed by `x · logistic x`, the two
  linear heads, the reciprocal length guarded against zero, the unit direction, and the vector message. Each stage is read
  at an index with explicit coordinates and identified with the corresponding definition of the per-edge mathematics; the
  last four statements put the stages together as equalities of whole arrays.
-/
import proofs.«124468_j36601711296775_2_alg».proof.Proof.EdgeArrays

noncomputable section

namespace Cert.RefEdge

open Cert.ReferenceIdeal Cert.ReferenceIdeal.Gen Cert.ReferenceIdeal.Read Cert.EdgeArrays Idealize.ShloMosaic Idealize.ShloMosaic.ValueIdx

variable (x1 : (⟨S50000x3x128, .f32⟩ : BufTy).Contents (Elt Ideal))
  (x0 : (⟨S50000x128, .f32⟩ : BufTy).Contents (Elt Ideal))
  (x2 : (⟨S50000x3, .f32⟩ : BufTy).Contents (Elt Ideal))
  (x3 : (⟨S2x500000, .i32⟩ : BufTy).Contents (Elt Ideal))
  (x4 : (⟨S276x256, .f32⟩ : BufTy).Contents (Elt Ideal))
  (x5 : (⟨S256, .f32⟩ : BufTy).Contents (Elt Ideal))
  (x6 : (⟨S256x256, .f32⟩ : BufTy).Contents (Elt Ideal))
  (x7 : (⟨S256, .f32⟩ : BufTy).Contents (Elt Ideal))
  (x8 : (⟨S256x128, .f32⟩ : BufTy).Contents (Elt Ideal))
  (x9 : (⟨S128, .f32⟩ : BufTy).Contents (Elt Ideal))
  (x10 : (⟨S256x128, .f32⟩ : BufTy).Contents (Elt Ideal))
  (x11 : (⟨S128, .f32⟩ : BufTy).Contents (Elt Ideal))
  (x12 x13 : (⟨S20, .f32⟩ : BufTy).Contents (Elt Ideal))

/-! ## Geometry of an edge -/

/-- Coordinate `c` of edge `e`'s displacement: destination position minus source position. -/
theorem rij_eq (e : Fin 500000) (c : Fin 3) :
    val_main_v18 (F := Ideal) x2 x3 (ix2 e c) = EdgeSpec.rij (srcPos x2 x3 e) (dstPos x2 x3 e) c := by
  rw [val_main_v18_apply]
  rfl

/-- The length of edge `e`'s displacement: the square root of zero plus the sum of the three squared coordinates. -/
theorem dist_eq (e : Fin 500000) :
    val_main_v19 (F := Ideal) x2 x3 (ix2 e 0) = EdgeSpec.dist (srcPos x2 x3 e) (dstPos x2 x3 e) := by
  rw [val_main_v19_apply, val_main_call0_v2_apply, val_main_call0_v1_apply, val_main_call0_cst_apply]
  simp only [Ideal.hostUnary_sqrt_def, Ideal.ofBits_def, Ideal.ofBits_zero_f32, zero_add]
  unfold EdgeSpec.dist
  refine congrArg Ideal.sqrt (Finset.sum_congr rfl fun c _ => ?_)
  have hi : idx_main_call0_v1 (idx_main_call0_v2 (ix2 e 0)) c = ix2 e c :=
    funext fun a => Fin.ext (by match a with | ⟨0, _⟩ => rfl | ⟨1, _⟩ => rfl)
  rw [val_main_call0_v0_apply, hi, rij_eq]
  rfl

/-- Radial basis value `k` of edge `e`: `exp (-(q · q))` with `q = (length - centre k) / (width k + ε)`. -/
theorem rbf_eq (e : Fin 500000) (k : Fin 20) :
    val_main_v31 (F := Ideal) x2 x3 x12 x13 (ix2 e k)
      = EdgeSpec.rbf (fun k => x12 (ix1 k)) (fun k => x13 (ix1 k)) (EdgeSpec.dist (srcPos x2 x3 e) (dstPos x2 x3 e)) k := by
  rw [val_main_v31_apply, val_main_v30_apply, val_main_v29_apply, val_main_v28_apply, val_main_v23_apply,
    val_main_v21_apply, val_main_v22_apply, val_main_v20_apply, val_main_v27_apply, val_main_v26_apply,
    val_main_v25_apply, val_main_v24_apply, val_main_cst_apply]
  have h1 : idx_main_v21 (ix2 e k) = ix2 e 0 :=
    funext fun a => Fin.ext (by match a with | ⟨0, _⟩ => rfl | ⟨1, _⟩ => rfl)
  have h2 : idx_main_v20 (idx_main_v22 (ix2 e k)) = ix1 k :=
    funext fun a => Fin.ext (by match a with | ⟨0, _⟩ => rfl)
  have h3 : idx_main_v26 (idx_main_v27 (ix2 e k)) = ix1 k :=
    funext fun a => Fin.ext (by match a with | ⟨0, _⟩ => rfl)
  rw [h1, h2, h3, dist_eq]
  simp only [Ideal.hostUnary_exp_def, Ideal.hostNegf_def, Ideal.negf_def, Ideal.mulf_def, Ideal.hostDivf_def,
    Ideal.subf_def, Ideal.addf_def, Ideal.ofBits_def]
  rfl

/-- The guarded reciprocal of edge `e`'s length: `1 / length` where the length is positive (the divisor is the length
    there and one elsewhere), and zero elsewhere. -/
theorem inv_eq (e : Fin 500000) :
    val_main_v72 (F := Ideal) x2 x3 (ix2 e 0) = EdgeSpec.invDist (EdgeSpec.dist (srcPos x2 x3 e) (dstPos x2 x3 e)) := by
  rw [val_main_v72_apply, val_main_v69_apply, val_main_v68_apply, val_main_cst_9_apply, val_main_v71_apply,
    val_main_v70_apply, val_main_cst_10_apply, val_main_v67_apply, val_main_v66_apply, val_main_v65_apply,
    val_main_cst_7_apply, val_main_call3_v1_apply, val_main_call3_v0_apply, val_main_cst_8_apply,
    val_main_call4_v1_apply, val_main_call4_v0_apply, val_main_cst_11_apply, dist_eq]
  simp only [Ideal.ofBits_def, Ideal.ofBits_zero_f32, Ideal.ofBits_one_f32, Ideal.cmpf_def, Ideal.hostDivf_def]
  rfl

/-- Coordinate `c` of edge `e`'s unit direction: the displacement times the guarded reciprocal length. -/
theorem dir_eq (e : Fin 500000) (c : Fin 3) :
    val_main_v74 (F := Ideal) x2 x3 (ix2 e c) = EdgeSpec.dir (srcPos x2 x3 e) (dstPos x2 x3 e) c := by
  have h1 : idx_main_v73 (ix2 e c) = ix2 e 0 :=
    funext fun a => Fin.ext (by match a with | ⟨0, _⟩ => rfl | ⟨1, _⟩ => rfl)
  rw [val_main_v74_apply, val_main_v73_apply, h1, rij_eq, inv_eq]
  rfl

/-! ## The perceptron's input row -/

/-- Entry `k` of edge `e`'s input row: a source feature for `k < 128`, a destination feature for `128 ≤ k < 256`, a
    radial basis value from there on. -/
theorem cat_eq (e : Fin 500000) (k : Fin 276) :
    val_main_v46 (F := Ideal) x0 x2 x3 x12 x13 (ix2 e k)
      = EdgeSpec.cat (srcFeat x0 x3 e) (dstFeat x0 x3 e)
          (EdgeSpec.rbf (fun k => x12 (ix1 k)) (fun k => x13 (ix1 k)) (EdgeSpec.dist (srcPos x2 x3 e) (dstPos x2 x3 e))) k := by
  unfold val_main_v46 EdgeSpec.cat
  by_cases h1 : k.val < 128
  · rw [dif_pos h1]
    exact concatenate_apply_piece (t := S500000x276) (1 : Fin 2)
        [⟨S500000x128, val_main_v38 (F := Ideal) x0 x3⟩, ⟨S500000x128, val_main_v45 (F := Ideal) x0 x3⟩, ⟨S500000x20, val_main_v31 (F := Ideal) x2 x3 x12 x13⟩]
        concatenates_S500000x128_S500000x128_S500000x20_S500000x276_d1 (ix2 e k)
      0 (by show 0 < 3; decide) S500000x128 (val_main_v38 (F := Ideal) x0 x3) (by rfl) (by rfl) 0 (by rfl) (ix2 e ⟨k.val, h1⟩)
      (fun b hb => by match b, hb with | ⟨0, _⟩, _ => rfl | ⟨1, _⟩, hb => exact (hb (Fin.ext rfl)).elim) (by show 0 + k.val = k.val; omega)
  · rw [dif_neg h1]
    by_cases h2 : k.val < 256
    · rw [dif_pos h2]
      exact concatenate_apply_piece (t := S500000x276) (1 : Fin 2)
        [⟨S500000x128, val_main_v38 (F := Ideal) x0 x3⟩, ⟨S500000x128, val_main_v45 (F := Ideal) x0 x3⟩, ⟨S500000x20, val_main_v31 (F := Ideal) x2 x3 x12 x13⟩]
        concatenates_S500000x128_S500000x128_S500000x20_S500000x276_d1 (ix2 e k)
        1 (by show 1 < 3; decide) S500000x128 (val_main_v45 (F := Ideal) x0 x3) (by rfl) (by rfl) 128 (by rfl) (ix2 e ⟨k.val - 128, by omega⟩)
        (fun b hb => by match b, hb with | ⟨0, _⟩, _ => rfl | ⟨1, _⟩, hb => exact (hb (Fin.ext rfl)).elim) (by show 128 + (k.val - 128) = k.val; omega)
    · rw [dif_neg h2]
      have hk : k.val - 256 < 20 := by have := k.isLt; omega
      refine (concatenate_apply_piece (t := S500000x276) (1 : Fin 2)
        [⟨S500000x128, val_main_v38 (F := Ideal) x0 x3⟩, ⟨S500000x128, val_main_v45 (F := Ideal) x0 x3⟩, ⟨S500000x20, val_main_v31 (F := Ideal) x2 x3 x12 x13⟩]
        concatenates_S500000x128_S500000x128_S500000x20_S500000x276_d1 (ix2 e k)
        2 (by show 2 < 3; decide) S500000x20 (val_main_v31 (F := Ideal) x2 x3 x12 x13) (by rfl) (by rfl) 256 (by rfl) (ix2 e ⟨k.val - 256, hk⟩)
        (fun b hb => by match b, hb with | ⟨0, _⟩, _ => rfl | ⟨1, _⟩, hb => exact (hb (Fin.ext rfl)).elim) (by show 256 + (k.val - 256) = k.val; omega)).trans ?_
      exact rbf_eq x2 x3 x12 x13 e ⟨k.val - 256, hk⟩

/-! ## The perceptron -/

/-- Entry `n` of the first affine layer on edge `e`'s input row. -/
theorem pre1_eq (e : Fin 500000) (n : Fin 256) :
    val_main_v50 (F := Ideal) x0 x2 x3 x4 x5 x12 x13 (ix2 e n)
      = EdgeSpec.lin (fun (k : Fin 276) (n : Fin 256) => x4 (ix2 k n)) (fun (n : Fin 256) => x5 (ix1 n))
          (EdgeSpec.cat (srcFeat x0 x3 e) (dstFeat x0 x3 e)
            (EdgeSpec.rbf (fun k => x12 (ix1 k)) (fun k => x13 (ix1 k)) (EdgeSpec.dist (srcPos x2 x3 e) (dstPos x2 x3 e)))) n := by
  have hb : idx_main_v48 (idx_main_v49 (ix2 e n)) = ix1 n := funext fun a => Fin.ext (by match a with | ⟨0, _⟩ => rfl)
  rw [val_main_v50_apply, val_main_v47_apply, val_main_v49_apply, val_main_v48_apply, hb]
  simp only [Ideal.addf_def]
  unfold EdgeSpec.lin
  refine congrArg₂ (· + ·) (Finset.sum_congr rfl fun k _ => ?_) rfl
  have hl : lidx_main_v47 (ix2 e n) k = ix2 e k := funext fun a => Fin.ext (by match a with | ⟨0, _⟩ => rfl | ⟨1, _⟩ => rfl)
  have hr : ridx_main_v47 (ix2 e n) k = ix2 k n := funext fun a => Fin.ext (by match a with | ⟨0, _⟩ => rfl | ⟨1, _⟩ => rfl)
  rw [hl, hr, cat_eq]

/-- Entry `n` of edge `e`'s first hidden row: the first affine layer through `x · (1 / (1 + exp (-x)))`. -/
theorem hid1_eq (e : Fin 500000) (n : Fin 256) :
    val_main_v51 (F := Ideal) x0 x2 x3 x4 x5 x12 x13 (ix2 e n) = EdgeSpec.hid1 (wts x4 x5 x6 x7 x8 x9 x10 x11 x12 x13) (srcFeat x0 x3 e) (dstFeat x0 x3 e) (srcPos x2 x3 e) (dstPos x2 x3 e) n := by
  rw [val_main_v51_apply, val_main_call1_v5_apply, val_main_call1_v4_apply, val_main_call1_cst_0_apply,
    val_main_call1_v3_apply, val_main_call1_v2_apply, val_main_call1_cst_apply, val_main_call1_v1_apply,
    val_main_call1_v0_apply, pre1_eq]
  simp only [Ideal.ofBits_def, Ideal.ofBits_one_f32, Ideal.mulf_def, Ideal.hostDivf_def, Ideal.addf_def,
    Ideal.hostUnary_exp_def, Ideal.hostNegf_def, Ideal.negf_def]
  rfl

/-- Entry `n` of the second affine layer on edge `e`'s first hidden row. -/
theorem pre2_eq (e : Fin 500000) (n : Fin 256) :
    val_main_v55 (F := Ideal) x0 x2 x3 x4 x5 x6 x7 x12 x13 (ix2 e n)
      = EdgeSpec.lin (wts x4 x5 x6 x7 x8 x9 x10 x11 x12 x13).W2 (wts x4 x5 x6 x7 x8 x9 x10 x11 x12 x13).b2 (EdgeSpec.hid1 (wts x4 x5 x6 x7 x8 x9 x10 x11 x12 x13) (srcFeat x0 x3 e) (dstFeat x0 x3 e) (srcPos x2 x3 e) (dstPos x2 x3 e)) n := by
  have hb : idx_main_v53 (idx_main_v54 (ix2 e n)) = ix1 n := funext fun a => Fin.ext (by match a with | ⟨0, _⟩ => rfl)
  rw [val_main_v55_apply, val_main_v52_apply, val_main_v54_apply, val_main_v53_apply, hb]
  simp only [Ideal.addf_def]
  unfold EdgeSpec.lin
  refine congrArg₂ (· + ·) (Finset.sum_congr rfl fun k _ => ?_) rfl
  have hl : lidx_main_v52 (ix2 e n) k = ix2 e k := funext fun a => Fin.ext (by match a with | ⟨0, _⟩ => rfl | ⟨1, _⟩ => rfl)
  have hr : ridx_main_v52 (ix2 e n) k = ix2 k n := funext fun a => Fin.ext (by match a with | ⟨0, _⟩ => rfl | ⟨1, _⟩ => rfl)
  rw [hl, hr, hid1_eq x0 x2 x3 x4 x5 x6 x7 x8 x9 x10 x11 x12 x13]
  rfl

/-- Entry `n` of edge `e`'s second hidden row. -/
theorem hid2_eq (e : Fin 500000) (n : Fin 256) :
    val_main_v56 (F := Ideal) x0 x2 x3 x4 x5 x6 x7 x12 x13 (ix2 e n) = EdgeSpec.hid2 (wts x4 x5 x6 x7 x8 x9 x10 x11 x12 x13) (srcFeat x0 x3 e) (dstFeat x0 x3 e) (srcPos x2 x3 e) (dstPos x2 x3 e) n := by
  rw [val_main_v56_apply, val_main_call2_v5_apply, val_main_call2_v4_apply, val_main_call2_cst_0_apply,
    val_main_call2_v3_apply, val_main_call2_v2_apply, val_main_call2_cst_apply, val_main_call2_v1_apply,
    val_main_call2_v0_apply, pre2_eq x0 x2 x3 x4 x5 x6 x7 x8 x9 x10 x11 x12 x13]
  simp only [Ideal.ofBits_def, Ideal.ofBits_one_f32, Ideal.mulf_def, Ideal.hostDivf_def, Ideal.addf_def,
    Ideal.hostUnary_exp_def, Ideal.hostNegf_def, Ideal.negf_def]
  rfl

/-! ## The two heads and the messages -/

/-- Entry `j` of edge `e`'s scalar message: the scalar head on the second hidden row. -/
theorem ds_eq (e : Fin 500000) (j : Fin 128) :
    val_main_v60 (F := Ideal) x0 x2 x3 x4 x5 x6 x7 x8 x9 x12 x13 (ix2 e j) = EdgeSpec.dsE (wts x4 x5 x6 x7 x8 x9 x10 x11 x12 x13) (srcFeat x0 x3 e) (dstFeat x0 x3 e) (srcPos x2 x3 e) (dstPos x2 x3 e) j := by
  have hb : idx_main_v58 (idx_main_v59 (ix2 e j)) = ix1 j := funext fun a => Fin.ext (by match a with | ⟨0, _⟩ => rfl)
  rw [val_main_v60_apply, val_main_v57_apply, val_main_v59_apply, val_main_v58_apply, hb]
  simp only [Ideal.addf_def]
  unfold EdgeSpec.dsE EdgeSpec.lin
  refine congrArg₂ (· + ·) (Finset.sum_congr rfl fun k _ => ?_) rfl
  have hl : lidx_main_v57 (ix2 e j) k = ix2 e k := funext fun a => Fin.ext (by match a with | ⟨0, _⟩ => rfl | ⟨1, _⟩ => rfl)
  have hr : ridx_main_v57 (ix2 e j) k = ix2 k j := funext fun a => Fin.ext (by match a with | ⟨0, _⟩ => rfl | ⟨1, _⟩ => rfl)
  rw [hl, hr, hid2_eq x0 x2 x3 x4 x5 x6 x7 x8 x9 x10 x11 x12 x13]
  rfl

/-- Entry `j` of the magnitude of edge `e`'s vector message: the vector head on the second hidden row. -/
theorem dvMag_eq (e : Fin 500000) (j : Fin 128) :
    val_main_v64 (F := Ideal) x0 x2 x3 x4 x5 x6 x7 x10 x11 x12 x13 (ix2 e j) = EdgeSpec.dvMag (wts x4 x5 x6 x7 x8 x9 x10 x11 x12 x13) (srcFeat x0 x3 e) (dstFeat x0 x3 e) (srcPos x2 x3 e) (dstPos x2 x3 e) j := by
  have hb : idx_main_v62 (idx_main_v63 (ix2 e j)) = ix1 j := funext fun a => Fin.ext (by match a with | ⟨0, _⟩ => rfl)
  rw [val_main_v64_apply, val_main_v61_apply, val_main_v63_apply, val_main_v62_apply, hb]
  simp only [Ideal.addf_def]
  unfold EdgeSpec.dvMag EdgeSpec.lin
  refine congrArg₂ (· + ·) (Finset.sum_congr rfl fun k _ => ?_) rfl
  have hl : lidx_main_v61 (ix2 e j) k = ix2 e k := funext fun a => Fin.ext (by match a with | ⟨0, _⟩ => rfl | ⟨1, _⟩ => rfl)
  have hr : ridx_main_v61 (ix2 e j) k = ix2 k j := funext fun a => Fin.ext (by match a with | ⟨0, _⟩ => rfl | ⟨1, _⟩ => rfl)
  rw [hl, hr, hid2_eq x0 x2 x3 x4 x5 x6 x7 x8 x9 x10 x11 x12 x13]
  rfl

/-- Entry `(c, j)` of edge `e`'s vector message: coordinate `c` of the unit direction times entry `j` of the magnitude. -/
theorem dv_eq (e : Fin 500000) (c : Fin 3) (j : Fin 128) :
    val_main_v79 (F := Ideal) x0 x2 x3 x4 x5 x6 x7 x10 x11 x12 x13 (ix3 e c j) = EdgeSpec.dvE (wts x4 x5 x6 x7 x8 x9 x10 x11 x12 x13) (srcFeat x0 x3 e) (dstFeat x0 x3 e) (srcPos x2 x3 e) (dstPos x2 x3 e) c j := by
  have h1 : idx_main_v75 (idx_main_v77 (ix3 e c j)) = ix2 e c := funext fun a => Fin.ext (by match a with | ⟨0, _⟩ => rfl | ⟨1, _⟩ => rfl)
  have h2 : idx_main_v76 (idx_main_v78 (ix3 e c j)) = ix2 e j := funext fun a => Fin.ext (by match a with | ⟨0, _⟩ => rfl | ⟨1, _⟩ => rfl)
  rw [val_main_v79_apply, val_main_v77_apply, val_main_v75_apply, h1, val_main_v78_apply, val_main_v76_apply, h2,
    dir_eq, dvMag_eq x0 x2 x3 x4 x5 x6 x7 x8 x9 x10 x11 x12 x13]
  rfl

/-! ## Whole arrays -/

/-- The reference's array of scalar messages is the per-edge scalar message, edge by edge. -/
theorem ref_ds : val_main_v60 (F := Ideal) x0 x2 x3 x4 x5 x6 x7 x8 x9 x12 x13 = dsArr x0 x2 x3 x4 x5 x6 x7 x8 x9 x10 x11 x12 x13 := by
  funext i
  obtain ⟨e, j, rfl⟩ : ∃ (e : Fin 500000) (j : Fin 128), i = ix2 e j := ⟨i 0, i 1, eq_ix2 i⟩
  exact ds_eq x0 x2 x3 x4 x5 x6 x7 x8 x9 x10 x11 x12 x13 e j

/-- The reference's array of vector messages is the per-edge vector message, edge by edge. -/
theorem ref_dv : val_main_v79 (F := Ideal) x0 x2 x3 x4 x5 x6 x7 x10 x11 x12 x13 = dvArr x0 x2 x3 x4 x5 x6 x7 x8 x9 x10 x11 x12 x13 := by
  funext i
  obtain ⟨e, c, j, rfl⟩ : ∃ (e : Fin 500000) (c : Fin 3) (j : Fin 128), i = ix3 e c j := ⟨i 0, i 1, i 2, eq_ix3 i⟩
  exact dv_eq x0 x2 x3 x4 x5 x6 x7 x8 x9 x10 x11 x12 x13 e c j

/-- The reference's first result: every node's features plus the scalar messages of the edges ending at it. -/
theorem ref_G0 : val_main_v86 (F := Ideal) x0 x2 x3 x4 x5 x6 x7 x8 x9 x12 x13 = G0 x0 x2 x3 x4 x5 x6 x7 x8 x9 x10 x11 x12 x13 := by
  unfold val_main_v86 val_main_v82 G0
  rw [ref_ds x0 x2 x3 x4 x5 x6 x7 x8 x9 x10 x11 x12 x13]

/-- The reference's second result: every node's vector features plus the vector messages of the edges ending at it. -/
theorem ref_G1 :
    val_main_v87 (F := Ideal) x0 x1 x2 x3 x4 x5 x6 x7 x10 x11 x12 x13 = G1 x1 x0 x2 x3 x4 x5 x6 x7 x8 x9 x10 x11 x12 x13 := by
  unfold val_main_v87 val_main_v85 G1
  rw [ref_dv x0 x2 x3 x4 x5 x6 x7 x8 x9 x10 x11 x12 x13]

end Cert.RefEdge

end
-- ==== Proof.lean ====
/-
  One message-passing layer on a graph of 50000 nodes and 500000 edges, kernel against reference, on the extended reals.

  Both programs gather, for every edge, the scalar features of its two end nodes and the two nodes' positions; form the
  displacement, its length and twenty radial basis values of the length; run a two-layer perceptron with the activation
  x · logistic x on the 276 numbers (source features, destination features, radial values) and two linear heads on the hidden
  row; scale the second head by the unit direction of the displacement (zero where the length is not positive); and give every
  node the sum of the messages of the edges that end at it, added to its own features.

  The kernel differs in arrangement only: its pallas region works on 125 blocks of 4000 edges; it applies the first weight
  matrix as three row blocks to the three parts of the input row and adds the three products, where the reference multiplies
  the concatenated row by the whole matrix (a sum over 276 terms split into 128 + 128 + 20: associativity and commutativity
  of addition alone, so no finiteness of the inputs is used); it writes exp (0 - q²) for exp (-q²); it lays the scalar message
  and the three coordinates of the vector message side by side in one slab of 512 numbers per edge, multiplied by a validity
  column that is all ones, and the host cuts the slab apart again before the two scatter-adds. Changes of float format are the
  identity on the extended reals, the matrix products and the three-term sum of squares are plain sums on both sides, and
  logistic x is 1 / (1 + exp (-x)) by definition, which is how the reference spells it.

  The modules: EdgeSpec (the mathematics of one edge), EdgeSpecBlocks (the first layer block by block), EdgeArrays and
  KernelSlab (the results and the slab as whole-array functions), RefEdge (the reference computes them), KernelRowA–D (the
  kernel body row by row), KernelBlocks, KernelWindows, KernelFinal (blocks, the arrays the region finds, the cover),
  KernelTail and KernelRun (the host operations after the region, and the run).
-/
import proofs.«124468_j36601711296775_2_alg».proof.Defs
import proofs.«124468_j36601711296775_2_alg».proof.Proof.Gen.Kernel
import proofs.«124468_j36601711296775_2_alg».proof.Proof.Gen.KernelIdeal
import proofs.«124468_j36601711296775_2_alg».proof.Proof.Gen.ReferenceIdeal
import proofs.«124468_j36601711296775_2_alg».proof.Proof.Gen.ReferenceIdeal.Run
import proofs.«124468_j36601711296775_2_alg».proof.Proof.Gen.ReferenceIdeal.Read
import proofs.«124468_j36601711296775_2_alg».proof.Proof.Gen.Pre_finite_inputs
import proofs.«124468_j36601711296775_2_alg».proof.Proof.KernelFrameP
import proofs.«124468_j36601711296775_2_alg».proof.Proof.KernelIdealFrameP
import proofs.«124468_j36601711296775_2_alg».proof.Proof.KernelRun
import proofs.«124468_j36601711296775_2_alg».proof.Proof.RefEdge
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_kernel : Cert.frame_Kernel (hKernel := Cert.Kernel.Gen.facts) (hPre_finite_inputs := Cert.Pre_finite_inputs.Gen.facts) :=
  fun m ρ _ => Cert.Kernel.GenP.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The idealized reference runs and keeps its arguments: its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

set_option maxHeartbeats 4000000 in
/-- From memories that agree on the arguments both idealized programs end with the updated scalar features at `G0` and the
    updated vector features at `G1` of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.EdgeArrays.G0 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), fun c => Cert.EdgeArrays.G1 (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), Cert.KernelRun.run m ρ, ?_⟩
  refine (θ_run Cert.ReferenceIdeal.defs _ _).mono (fun _ h c => ⟨?_, ?_, (h c).2.2⟩) (Cert.ReferenceIdeal.Value.run (F := Ideal) m' ρ')
  · obtain ⟨e0, e1, e2, e3, e4, e5, e6, e7, e8, e9, e10, e11, e12, e13⟩ := hagree c
    rw [(h c).1, Cert.ReferenceIdeal.Read.val_main_v86_eq, Cert.RefEdge.ref_G0 (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
      e0, e2, e3, e4, e5, e6, e7, e8, e9, e10, e11, e12, e13]
  · obtain ⟨e0, e1, e2, e3, e4, e5, e6, e7, e8, e9, e10, e11, e12, e13⟩ := hagree c
    rw [(h c).2.1, Cert.ReferenceIdeal.Read.val_main_v87_eq, Cert.RefEdge.ref_G1 (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)),
      e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
